-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg1 : FVec F S8192x8192 .f32) (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_cst_8 : FVec F S_ .f32 := constant S_ .f32 0x00000000#32
  let main_v24 : FVec F S8192x8192 .f32 := broadcastInDim S8192x8192 ![] bcast_S_S8192x8192 main_cst_8
  let main_v25 : IVec S8192x8192 1 := cmpf .oeq main_arg1 main_v24
  let main_cst_9 : FVec F S_ .f32 := constant S_ .f32 0x3F800000#32
  let main_v26 : FVec F S8192x8192 .f32 := broadcastInDim S8192x8192 ![] bcast_S_S8192x8192 main_cst_9
  let main_v27 : IVec S8192x8192 1 := cmpf .oeq main_arg1 main_v26
  let main_v28 : IVec S8192x8192 1 := ori main_v25 main_v27
  let main_c_10 : IVec S_ 1 := constantI S_ 1 1#1
  let main_v29 : IVec S_ 1 := (fun x v => Host.reduce IntOp.andi x v reducesTo_S8192x8192_S_d0_1 h_S_) main_v28 main_c_10
  let main_v30 : IVec S_ 1 := andi main_v23 main_v29
  main_v30

def fn {F : FTy → Type} [FloatOps F] (main_arg0 : FVec F S8192x512 .f32) (main_arg1 : FVec F S8192x8192 .f32) (main_arg2 : FVec F S512x512 .f32) (main_arg3 : FVec F S512x512 .f32) (main_arg4 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg4 main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S8192x1 : Shape := ⟨2, ![8192, 1]⟩
abbrev S512x8192 : Shape := ⟨2, ![512, 8192]⟩
abbrev S512x1 : Shape := ⟨2, ![512, 1]⟩
abbrev S8192 : Shape := ⟨1, ![8192]⟩
abbrev S_ : Shape := ⟨0, ![]⟩
abbrev S4096x512 : Shape := ⟨2, ![4096, 512]⟩
abbrev S1x512 : Shape := ⟨2, ![1, 512]⟩
abbrev S1024x2048 : Shape := ⟨2, ![1024, 2048]⟩
abbrev S2048x512 : Shape := ⟨2, ![2048, 512]⟩
abbrev S1024x512 : Shape := ⟨2, ![1024, 512]⟩
abbrev S1024x1 : Shape := ⟨2, ![1024, 1]⟩

abbrev nBuf : Space → Nat
  | .hbm => 21
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S8192x1, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S8192x512, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1024x2048, .f32⟩
  | .local _ .vmem, ⟨5, _⟩ => ⟨S1024x2048, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | .local _ .vmem, ⟨11, _⟩ => ⟨S1024x1, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S8192x1_S8192 : S8192x1.ShapeCasts S8192
  bcast_S_S8192 : S_.BroadcastsInDim S8192 (![] : Fin 0 → Fin S8192.rank)
  shapeCasts_S8192_S8192x1 : S8192.ShapeCasts S8192x1
  slices_S8192x512_S4096x512_0_0 : S8192x512.Slices ![0, 0] S4096x512
  slices_S8192x512_S4096x512_4096_0 : S8192x512.Slices ![4096, 0] S4096x512
  concatenates_S4096x512_S4096x512_S8192x512_d0 : Shape.Concatenates [S4096x512, S4096x512] S8192x512 0
  bcast_S8192x1_S8192x512_0_1 : S8192x1.BroadcastsInDim S8192x512 (![0, 1] : Fin 2 → Fin S8192x512.rank)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S4096x512_S512x512_S4096x512_1_0_0_1_n_n_wf : DotDims.WF S4096x512 S512x512 S4096x512 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .f32 = 32 ∨ (Rect.block (s := S8192x512) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S8192x512.size a
  hwx1_5 : ∀ i : grid1.Coords, EltTy.bits .f32 = 32 ∨ (Rect.block (s := S8192x512) S1024x512.size (cc1_transform_5 i) (hinb1_5 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S4096x512 : Shape := ⟨2, ![4096, 512]⟩
abbrev S1x512 : Shape := ⟨2, ![1, 512]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S8192x8192, .i32⟩
  | .hbm, ⟨6, _⟩ => ⟨S8192x8192, .i32⟩
  | .hbm, ⟨7, _⟩ => ⟨S_, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .i1⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S1x8192, .f32⟩
  | .hbm, ⟨27, _⟩ => ⟨S8192x8192, .f32⟩
  | .hbm, ⟨28, _⟩ => ⟨S8192x8192, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S_, .f32⟩
  | .hbm, ⟨40, _⟩ => ⟨S8192x512, .f32⟩
  | .hbm, ⟨41, _⟩ => ⟨S8192x512, .i1⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v27 : Ref sig .tc := ⟨.hbm, 45, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x512_S4096x512_0_0 : S8192x512.Slices ![0, 0] S4096x512
  slices_S8192x512_S4096x512_4096_0 : S8192x512.Slices ![4096, 0] S4096x512
  concatenates_S4096x512_S4096x512_S8192x512_d0 : Shape.Concatenates [S4096x512, S4096x512] S8192x512 0
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  dot_S4096x512_S512x512_S4096x512_1_0_0_1_n_n_wf : DotDims.WF S4096x512 S512x512 S4096x512 [1] [0] [0] [1] [] []
  dot_S8192x8192_S8192x512_S8192x512_1_0_0_1_n_n_wf : DotDims.WF S8192x8192 S8192x512 S8192x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Region0W.lean ====
/-
  The first pallas_call of the kernel program: the row sums of the adjacency matrix, sixteen blocks of 512 rows.

  At each grid point the body loads its 512 by 8192 block of the matrix whole, sums every row, lays the 512 sums out as
  a column, loads the output buffer (whose contents it ignores) and stores the column whole.  This module states the
  pipeline's proof data at a parameter `V` (the buffer contents when the region is entered): every point leaves the
  input's buffer at its block of the matrix and the output's buffer at the column of row sums of that block; and it
  proves the body obligation: the body, run on the staging buffers the pipeline calls it with, leaves exactly that.
-/
import proofs.«169937_j55585466744854_1_alg».proof.Proof.Gen.Kernel.Launch
import proofs.«169937_j55585466744854_1_alg».proof.Proof.Gen.Kernel.Skeleton
import proofs.«169937_j55585466744854_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block of the matrix at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 by 8192 input buffer, as the body's load spells it. -/
abbrev r0_0 : Rect S512x8192 := Rect.unit (s := S512x8192) ![0, 0] S512x8192.size inb_S512x8192_S512x8192_0_0
/-- The whole 512 by 1 output buffer, as the body's load and store spell it. -/
abbrev r0_1 : Rect S512x1 := Rect.unit (s := S512x1) ![0, 0] S512x1.size inb_S512x1_S512x1_0_0

/-! ## What the body leaves in the output window's buffer -/

/-- The output buffer after the body, from the input block: its one store, of the column of row sums of what the load
    of the whole input buffer read. -/
def out0_1 (x0 : Vec F S512x8192 .f32) : Vec F S512x1 .f32 :=
  View.canon [⟨r0_1, k0_pay1 (View.ld x0 r0_0)⟩]

/-- The one store is of the whole buffer, so it covers it. -/
theorem cover0_1 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The kernel body on whole staging memrefs, the input's at read contents `x0` and the output's at anything, runs to
    the continuation holding the input's as it was and the output's at `out0_1 x0`. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the first pallas_call on core `c`: the arrays as the region finds them (`V`); after the body at
    point `t` the input's buffer at its block and the output's at the row sums of that block; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.R1RunsW.lean ====
/-
  The second kernel region (the normalised neighbour sum): what its runs share.  The grid is 8 row blocks by 4 column
  blocks; a point's block of the adjacency matrix is multiplied into an accumulator kept in a scratch buffer, which is
  cleared at the first column block of a row block and, at the last, combined with the node's own scaled features,
  scaled, biased and rectified into the output block.  Stated here: each window's block at a point as the region finds
  the arrays, that an input window's buffer holds that block whether or not it was fetched at the point, the two branch
  conditions in closed form over the grid, and where the output window is left untouched.
-/
import proofs.«169937_j55585466744854_1_alg».proof.Proof.Gen.Kernel.Launch
import proofs.«169937_j55585466744854_1_alg».proof.Proof.Gen.Kernel.Skeleton
import proofs.«169937_j55585466744854_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds its block at every point: fetched there, or not fetched because the block
    index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The branch conditions over the grid -/

/-- "This is the first column block": the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last column block": the output block is computed and stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are left untouched -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The buffers a point's body is handed -/

/-- One staging buffer of the output window, through which its contents are stated. -/
abbrev VO1_5 : View sig .tc .vmem S1024x512 .f32 := (Memref.whole cc1_stg5_0 : Memref sig .tc .vmem S1024x512 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S1024x512 .f32 := Memref.whole cc1_scratch0
abbrev VS1_0 : View sig .tc .vmem S1024x512 .f32 := scM1_0.view

/-- The region's invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.R1

end
-- ==== Proof.R1RunAW.lean ====
/-
  The second kernel region's body at a point of the first column block that is not the last: the accumulator is cleared
  and the point's product added; the output buffer is left as found.
-/
import proofs.«169937_j55585466744854_1_alg».proof.Proof.R1RunsW

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator at such a point, with the run: the inputs'
    buffers at their contents and the output's at contents handed back untouched, the accumulator at anything. -/
noncomputable def kernelRun1_A (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x2048 .f32) (x1 : Vec F S2048x512 .f32) (x2 : Vec F S1024x512 .f32) (x3 : Vec F S1024x1 .f32) (x4 : Vec F S1x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__spmm_kernel i arg2 harg2 arg3 harg3 arg4 harg4 arg5 harg5 arg6 harg6 arg7 harg7 arg8 harg8) K } := by
  refine ⟨[], ?_, fun xi5 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.R1

end
-- ==== Proof.R1RunBW.lean ====
/-
  The second kernel region's body at a point of a middle column block: the point's product is added to the accumulator
  the point before left; the output buffer is left as found.
-/
import proofs.«169937_j55585466744854_1_alg».proof.Proof.R1RunsW

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator at such a point, with the run: the accumulator
    at the contents `xs0` the point before left. -/
noncomputable def kernelRun1_B (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__spmm_kernel i arg2 harg2 arg3 harg3 arg4 harg4 arg5 harg5 arg6 harg6 arg7 harg7 arg8 harg8) K } := by
  refine ⟨[], ?_, fun xi5 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.R1

end
-- ==== Proof.R1RunCW.lean ====
/-
  The second kernel region's body at a point of the last column block: the point's product is added to the accumulator,
  and the output block is computed from it, the node's own scaled features, its inverse square-root degree and the bias.
-/
import proofs.«169937_j55585466744854_1_alg».proof.Proof.R1RunsW

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output buffer and in the accumulator at such a point, with
    the run: the accumulator at the contents `xs0` the point before left, the output buffer at anything. -/
noncomputable def kernelRun1_C (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) :
    Σ' (L5 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__spmm_kernel i arg2 harg2 arg3 harg3 arg4 harg4 arg5 harg5 arg6 harg6 arg7 harg7 arg8 harg8) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.R1

end
-- ==== Proof.R1W.lean ====
/-
  The second kernel region (the normalised neighbour sum): what the accumulator and the output buffer hold after each
  grid point, the region's proof data and its body obligation.  Within a row block the accumulator is cleared at the
  first column block and grows by one block product per point; the output buffer is written at the last column block
  only and is left untouched (and not written back) at the other points.
-/
import proofs.«169937_j55585466744854_1_alg».proof.Proof.R1RunAW
import proofs.«169937_j55585466744854_1_alg».proof.Proof.R1RunBW
import proofs.«169937_j55585466744854_1_alg».proof.Proof.R1RunCW

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output buffer: a placeholder that nothing consults. -/
def out1_A_5 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x2048 .f32) (x1 : Vec F S2048x512 .f32) (x2 : Vec F S1024x512 .f32) (x3 : Vec F S1024x1 .f32) (x4 : Vec F S1x512 .f32) : Vec F S1024x512 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's stores cover the accumulator. -/
theorem scover1_A_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x2048 .f32) (x1 : Vec F S2048x512 .f32) (x2 : Vec F S1024x512 .f32) (x3 : Vec F S1024x1 .f32) (x4 : Vec F S1x512 .f32) (y : S1024x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x512.size (by sl_kernel_rfl) y

/-- What case A leaves in the accumulator. -/
def sout1_A_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x2048 .f32) (x1 : Vec F S2048x512 .f32) (x2 : Vec F S1024x512 .f32) (x3 : Vec F S1024x1 .f32) (x4 : Vec F S1x512 .f32) : Vec F S1024x512 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- Case B stores nothing into the output buffer: a placeholder that nothing consults. -/
def out1_B_5 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) : Vec F S1024x512 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's stores cover the accumulator. -/
theorem scover1_B_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) (y : S1024x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x512.size (by sl_kernel_rfl) y

/-- What case B leaves in the accumulator. -/
def sout1_B_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) : Vec F S1024x512 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's store covers the output buffer. -/
theorem cover1_C_5 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) (y : S1024x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x512.size (by sl_kernel_rfl) y

/-- What case C leaves in the output buffer. -/
def out1_C_5 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) : Vec F S1024x512 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's stores cover the accumulator. -/
theorem scover1_C_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) (y : S1024x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x512.size (by sl_kernel_rfl) y

/-- What case C leaves in the accumulator. -/
def sout1_C_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) : Vec F S1024x512 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

section
variable (V : (c : Dev nD) → (b : Ref sig .tc) → Buf (Elt F) ((c : Thread nD τ).loc b))

/-! ## What the output buffer and the accumulator hold after each point -/

/-- The output buffer and the accumulator after the body at position `n`: the case the position is in, run at the
    point's buffers and input blocks, the accumulator read at what the position before left. -/
def outsAt1 (c : Dev nD) : (n : ℕ) → n < cfg1.N → Vec F S1024x512 .f32 × Vec F S1024x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer the region does not stage
    at anything; afterwards the accumulator at what the point before left, the others at anything; the generator
    register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The region's proof data on core `c`: the arrays as the region finds them; after the body each input's buffer at its
    block and the output's at `outsAt1`; the two windows that read the scaled features share that array, half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' buffers hold their blocks; the closed forms of the conditions say which case the
    point is in; the invariant hands the body the accumulator at what the point before left (at anything at the first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A_0 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A_0 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS_castSucc V c t, PhiS_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_C_0 _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_B_0 _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end

end Cert.Kernel.R1

end
-- ==== Proof.R1ArraysW.lean ====
/-
  The second kernel region's arrays among the core's unscoped buffers.  Two of its input windows read one array (the
  scaled features: once by column block, once by row block), so the region holds that array in two half shares; the
  buffers behind the arrays, each whole at the full share, are exactly the region's arrays at the same contents.
-/
import proofs.«169937_j55585466744854_1_alg».proof.Proof.R1W

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The region's arrays window by window: the adjacency matrix, the scaled features twice (a half share each), the
    inverse square-root degrees, the bias row, the result. -/
theorem arrays1_eq (c : Dev nD) (F' : (w : Fin cfg1.W) → Buf (Elt F) ((cfg1.win w).arr.view.loc (c.tc : Thread nD τ))) :
    ((dat1 V c).arrays F' : sProp 𝕄) = iprop(
      (((c : Thread nD τ).loc main_arg1) ↦{fullShare} F' 0) ∗ (((c : Thread nD τ).loc main_v12) ↦{fullShare.left} F' 1) ∗ (((c : Thread nD τ).loc main_v12) ↦{fullShare.right} F' 2)
      ∗ (((c : Thread nD τ).loc main_v5) ↦{fullShare} F' 3) ∗ (((c : Thread nD τ).loc main_v13) ↦{fullShare} F' 4) ∗ (((c : Thread nD τ).loc main_v14) ↦{fullShare} F' 5)) := by
  have h : ((dat1 V c).arrays F' : sProp 𝕄) = bigSep Finset.univ fun w : Fin cfg1.W => (((c : Thread nD τ).loc (Pipeline.arrRef spec1 w)) ↦{(dat1 V c).share w} F' w : sProp 𝕄) := by
    unfold Dat.arrays
    exact bigSep_congr fun w _ => by rw [(arr_whole1 w).set_eq_univ]
  rw [h, bigSep_W1]
  rfl

/-- The distinct buffers behind the region's arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄) = iprop(
      (((c : Thread nD τ).loc main_arg1) ↦{fullShare} V' main_arg1) ∗ (((c : Thread nD τ).loc main_v12) ↦{fullShare} V' main_v12)
      ∗ (((c : Thread nD τ).loc main_v5) ↦{fullShare} V' main_v5) ∗ (((c : Thread nD τ).loc main_v13) ↦{fullShare} V' main_v13) ∗ (((c : Thread nD τ).loc main_v14) ↦{fullShare} V' main_v14)) := by
  unfold Pipeline.arrBufs
  exact bigSep_eq_bigSepL_of_eq [main_arg1, main_v12, main_v5, main_v13, main_v14] (by decide) (by decide) _

/-- The buffers behind the arrays at contents `V'` are the region's arrays at `V'`: the shared array splits into its
    two half shares, -/
theorem arrays_of_arrBufs1 (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      ⊢ (dat1 V c).arrays fun w => V' (Pipeline.arrRef spec1 w) := by
  rw [arrays1_eq, arrBufs1_eq]
  iintro ⟨H0, H12, H5, H13, H14⟩
  ihave H12' := (pointsTo_share (PosShare.mem_left_op_right fullShare)).1 $$ H12
  icases H12' with ⟨Hl, Hr⟩
  isplitl [H0]; · iexact H0
  isplitl [Hl]; · iexact Hl
  isplitl [Hr]; · iexact Hr
  isplitl [H5]; · iexact H5
  isplitl [H13]; · iexact H13
  iexact H14

/-- and back: the two half shares join. -/
theorem arrBufs_of_arrays1 (c : Dev nD) (V' : (b : Ref sig .tc) → Buf (Elt F) ((c : Thread nD τ).loc b)) :
    ((dat1 V c).arrays fun w => V' (Pipeline.arrRef spec1 w))
      ⊢ (Pipeline.arrBufs (Ix := Unit) (Name := ℕ) (U := UR sig nD τ) (Lvl := ℕ) spec1 c V' : sProp 𝕄) := by
  rw [arrays1_eq, arrBufs1_eq]
  iintro ⟨H0, Hl, Hr, H5, H13, H14⟩
  isplitl [H0]; · iexact H0
  isplitl [Hl Hr]
  · iapply (pointsTo_share (PosShare.mem_left_op_right fullShare)).2
    isplitl [Hl]; · iexact Hl
    iexact Hr
  isplitl [H5]; · iexact H5
  isplitl [H13]; · iexact H13
  iexact H14

end

end Cert.Kernel.R1

end
-- ==== Proof.KFrameW.lean ====
/-
  The kernel program's run, at any float instance: the degree region, the host stretch that turns the row sums into
  inverse square-root degrees and scales the projected features, and the neighbour-sum region, composed in order.
  Between two items a core holds every unscoped buffer at a named valuation: the launch memory, then the degree
  region's row sums put in, then the host stretch folded over it, then the second region's result put in.  The run
  ends with every unscoped buffer at the last valuation, from which the argument arrays and the result are read.
-/
import proofs.«169937_j55585466744854_1_alg».proof.Proof.Region0W
import proofs.«169937_j55585466744854_1_alg».proof.Proof.R1ArraysW
import proofs.«169937_j55585466744854_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the degree region's entry). -/
abbrev W0 : Dev nD → Valuation τ sig (Elt F) := fun c b => m (c, b)
abbrev V1 : (c : Dev nD) → (b : Ref sig .tc) → Buf (Elt F) ((c : Thread nD τ).loc b) := fun c b => W0 m c b
/-- After the degree region: its arrays at what its write-backs leave, every other buffer as entered. -/
def W2 (c : Dev nD) : Valuation τ sig (Elt F) :=
  Pipeline.withArrays spec0 c (W0 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch (the neighbour-sum region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the neighbour-sum region: the result array at what its write-backs leave, every other buffer as entered
    (its other arrays are inputs, which a region leaves as it found them). -/
def W4 (c : Dev nD) : Valuation τ sig (Elt F) :=
  Function.update (W3 m c) main_v14 ((R1.dat1 (V3 m) c).arrAt 5 cfg1.N)
abbrev V4 : (c : Dev nD) → (b : Ref sig .tc) → Buf (Elt F) ((c : Thread nD τ).loc b) := fun c b => W4 m c b
theorem W4_out (c : Dev nD) : W4 m c (Proc.devRef .tc main_v14) = (R1.dat1 (V3 m) c).arrAt 5 cfg1.N := by
  unfold W4; exact Function.update_self _ _ _
theorem W4_of_ne (c : Dev nD) (b : Ref sig .tc) (hb : b ≠ main_v14) :
    W4 m c (Proc.devRef .tc b) = W3 m c (Proc.devRef .tc b) := by
  unfold W4; exact Function.update_of_ne (StableHlo.devRef_ne_of_ne hb) _ _

/-- The second region's arrays after its last point, window by window, are the last valuation's. -/
theorem hF1 (c : Dev nD) : (fun w => (R1.dat1 (V3 m) c).arrAt w cfg1.N) = fun w => V4 m c (Pipeline.arrRef spec1 w) := by
  funext w
  match w with
  | ⟨0, _⟩ => exact ((R1.dat1 (V3 m) c).arrAt_in 0 rfl _).trans ((R1.A_eq1 (V3 m) c 0).trans (W4_of_ne m c main_arg1 (by decide)).symm)
  | ⟨1, _⟩ => exact ((R1.dat1 (V3 m) c).arrAt_in 1 rfl _).trans ((R1.A_eq1 (V3 m) c 1).trans (W4_of_ne m c main_v12 (by decide)).symm)
  | ⟨2, _⟩ => exact ((R1.dat1 (V3 m) c).arrAt_in 2 rfl _).trans ((R1.A_eq1 (V3 m) c 2).trans (W4_of_ne m c main_v12 (by decide)).symm)
  | ⟨3, _⟩ => exact ((R1.dat1 (V3 m) c).arrAt_in 3 rfl _).trans ((R1.A_eq1 (V3 m) c 3).trans (W4_of_ne m c main_v5 (by decide)).symm)
  | ⟨4, _⟩ => exact ((R1.dat1 (V3 m) c).arrAt_in 4 rfl _).trans ((R1.A_eq1 (V3 m) c 4).trans (W4_of_ne m c main_v13 (by decide)).symm)
  | ⟨5, _⟩ => exact (W4_out m c).symm

/-- Its arrays at entry are the entry valuation's. -/
theorem hA1 (c : Dev nD) : (fun w => (R1.dat1 (V3 m) c).arrAt w 0) = fun w => V3 m c (Pipeline.arrRef spec1 w) := by
  funext w; exact (R1.A_eq1 (V3 m) c w)

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The degree region: entered from every unscoped buffer at the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers at the second region's entry are its arrays (the shared array in two half shares) and the rest. -/
theorem hsplit1 (c : Dev nD) :
    (unscopedBufs c (V3 m c) : sProp 𝕄) ⊢ iprop((R1.dat1 (V3 m) c).arrays ((R1.dat1 (V3 m) c).arrAt · 0)
      ∗ Pipeline.unscopedRest (Ix := Unit) (Name := ℕ) (U := UR sig nD τ) (Lvl := ℕ) spec1 c (V3 m c)) := by
  rw [Pipeline.unscopedBufs_split₀ (Pipeline.pin (pcfgs (F := F)) adm) 1 winFacts₀1.arr_unscoped c (V3 m c)]
  rw [show ((R1.dat1 (V3 m) c).arrAt · 0) = fun w => V3 m c (Pipeline.arrRef spec1 w) from hA1 m c]
  exact sep_mono (R1.arrays_of_arrBufs1 (V3 m) c (V3 m c)) .rfl

/-- The second region's arrays after its last point and the rest are the unscoped buffers at the last valuation. -/
theorem hjoin1 (c : Dev nD) :
    iprop((R1.dat1 (V3 m) c).arrays ((R1.dat1 (V3 m) c).arrAt · cfg1.N)
      ∗ Pipeline.unscopedRest (Ix := Unit) (Name := ℕ) (U := UR sig nD τ) (Lvl := ℕ) spec1 c (V3 m c)) ⊢ (unscopedBufs c (V4 m c) : sProp 𝕄) := by
  rw [Pipeline.unscopedBufs_split₀ (Pipeline.pin (pcfgs (F := F)) adm) 1 winFacts₀1.arr_unscoped c (V4 m c)]
  rw [show ((R1.dat1 (V3 m) c).arrAt · cfg1.N) = fun w => V4 m c (Pipeline.arrRef spec1 w) from hF1 m c]
  refine sep_mono (R1.arrBufs_of_arrays1 (V3 m) c (V4 m c)) (Entails.of_eq ?_)
  unfold Pipeline.unscopedRest
  exact bigSep_congr fun b hb => by
    rw [show V4 m c b = V3 m c b from W4_of_ne m c b fun e => (Finset.mem_sdiff.mp hb).2 (Finset.mem_image.mpr ⟨5, Finset.mem_univ _, e ▸ rfl⟩)]

set_option backward.isDefEq.respectTransparency.types false in
/-- The neighbour-sum region: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := hsplit1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from R1.hout1 (V3 m) c).trans ?_
    unfold Pipeline.ΦA
    iintro ⟨Hr, Hp⟩
    isplitl [Hp]; · iexact Hp
    isplitr; · iempintro
    iexact Hr
  hexit c := by
    have hjoin : (iprop((pdats m 1 c).arrays ((pdats m 1 c).arrAt · cfg1.N)
        ∗ Pipeline.unscopedRest (Ix := Unit) (Name := ℕ) (U := UR sig nD τ) (Lvl := ℕ) spec1 c (V3 m c)) : sProp 𝕄)
        ⊢ unscopedBufs c (V4 m c) := hjoin1 m c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each core's unscoped buffers hold the last valuation `W4`. -/
theorem run_W4 : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W0 m c (Proc.devRef .tc main_arg0) := W2_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W0 m c (Proc.devRef .tc main_arg1) := (W2_arr m c 0).trans (((R0.dat0 (V1 m) c).arrAt_in 0 rfl _).trans (R0.A_eq0 (V1 m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W0 m c (Proc.devRef .tc main_arg2) := W2_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W0 m c (Proc.devRef .tc main_arg3) := W2_of_ne m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W0 m c (Proc.devRef .tc main_arg4) := W2_of_ne m c main_arg4 (by decide)
    _ = m ((c : Thread nD τ).loc main_arg4) := rfl

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_W4 m ρ)

end Cert.Kernel.KF

end
-- ==== Proof.Region0.lean ====
/-
  The first pallas_call of the kernel program: the row sums of the adjacency matrix, sixteen blocks of 512 rows.

  At each grid point the body loads its 512 by 8192 block of the matrix whole, sums every row, lays the 512 sums out as
  a column, loads the output buffer (whose contents it ignores) and stores the column whole.  This module states the
  pipeline's proof data at a parameter `V` (the buffer contents when the region is entered): every point leaves the
  input's buffer at its block of the matrix and the output's buffer at the column of row sums of that block; and it
  proves the body obligation: the body, run on the staging buffers the pipeline calls it with, leaves exactly that.
-/
import proofs.«169937_j55585466744854_1_alg».proof.Proof.Gen.KernelIdeal.Launch
import proofs.«169937_j55585466744854_1_alg».proof.Proof.Gen.KernelIdeal.Skeleton
import proofs.«169937_j55585466744854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block of the matrix at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 by 8192 input buffer, as the body's load spells it. -/
abbrev r0_0 : Rect S512x8192 := Rect.unit (s := S512x8192) ![0, 0] S512x8192.size inb_S512x8192_S512x8192_0_0
/-- The whole 512 by 1 output buffer, as the body's load and store spell it. -/
abbrev r0_1 : Rect S512x1 := Rect.unit (s := S512x1) ![0, 0] S512x1.size inb_S512x1_S512x1_0_0

/-! ## What the body leaves in the output window's buffer -/

/-- The output buffer after the body, from the input block: its one store, of the column of row sums of what the load
    of the whole input buffer read. -/
def out0_1 (x0 : Vec F S512x8192 .f32) : Vec F S512x1 .f32 :=
  View.canon [⟨r0_1, k0_pay1 (View.ld x0 r0_0)⟩]

/-- The one store is of the whole buffer, so it covers it. -/
theorem cover0_1 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The kernel body on whole staging memrefs, the input's at read contents `x0` and the output's at anything, runs to
    the continuation holding the input's as it was and the output's at `out0_1 x0`. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the first pallas_call on core `c`: the arrays as the region finds them (`V`); after the body at
    point `t` the input's buffer at its block and the output's at the row sums of that block; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.R1Runs.lean ====
/-
  The second kernel region (the normalised neighbour sum): what its runs share.  The grid is 8 row blocks by 4 column
  blocks; a point's block of the adjacency matrix is multiplied into an accumulator kept in a scratch buffer, which is
  cleared at the first column block of a row block and, at the last, combined with the node's own scaled features,
  scaled, biased and rectified into the output block.  Stated here: each window's block at a point as the region finds
  the arrays, that an input window's buffer holds that block whether or not it was fetched at the point, the two branch
  conditions in closed form over the grid, and where the output window is left untouched.
-/
import proofs.«169937_j55585466744854_1_alg».proof.Proof.Gen.KernelIdeal.Launch
import proofs.«169937_j55585466744854_1_alg».proof.Proof.Gen.KernelIdeal.Skeleton
import proofs.«169937_j55585466744854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds its block at every point: fetched there, or not fetched because the block
    index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The branch conditions over the grid -/

/-- "This is the first column block": the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last column block": the output block is computed and stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are left untouched -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The buffers a point's body is handed -/

/-- One staging buffer of the output window, through which its contents are stated. -/
abbrev VO1_5 : View sig .tc .vmem S1024x512 .f32 := (Memref.whole cc1_stg5_0 : Memref sig .tc .vmem S1024x512 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S1024x512 .f32 := Memref.whole cc1_scratch0
abbrev VS1_0 : View sig .tc .vmem S1024x512 .f32 := scM1_0.view

/-- The region's invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.R1

end
-- ==== Proof.R1RunA.lean ====
/-
  The second kernel region's body at a point of the first column block that is not the last: the accumulator is cleared
  and the point's product added; the output buffer is left as found.
-/
import proofs.«169937_j55585466744854_1_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator at such a point, with the run: the inputs'
    buffers at their contents and the output's at contents handed back untouched, the accumulator at anything. -/
noncomputable def kernelRun1_A (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x2048 .f32) (x1 : Vec F S2048x512 .f32) (x2 : Vec F S1024x512 .f32) (x3 : Vec F S1024x1 .f32) (x4 : Vec F S1x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__spmm_kernel i arg2 harg2 arg3 harg3 arg4 harg4 arg5 harg5 arg6 harg6 arg7 harg7 arg8 harg8) K } := by
  refine ⟨[], ?_, fun xi5 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.R1

end
-- ==== Proof.R1RunB.lean ====
/-
  The second kernel region's body at a point of a middle column block: the point's product is added to the accumulator
  the point before left; the output buffer is left as found.
-/
import proofs.«169937_j55585466744854_1_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator at such a point, with the run: the accumulator
    at the contents `xs0` the point before left. -/
noncomputable def kernelRun1_B (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__spmm_kernel i arg2 harg2 arg3 harg3 arg4 harg4 arg5 harg5 arg6 harg6 arg7 harg7 arg8 harg8) K } := by
  refine ⟨[], ?_, fun xi5 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.R1

end
-- ==== Proof.R1RunC.lean ====
/-
  The second kernel region's body at a point of the last column block: the point's product is added to the accumulator,
  and the output block is computed from it, the node's own scaled features, its inverse square-root degree and the bias.
-/
import proofs.«169937_j55585466744854_1_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output buffer and in the accumulator at such a point, with
    the run: the accumulator at the contents `xs0` the point before left, the output buffer at anything. -/
noncomputable def kernelRun1_C (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) :
    Σ' (L5 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__spmm_kernel i arg2 harg2 arg3 harg3 arg4 harg4 arg5 harg5 arg6 harg6 arg7 harg7 arg8 harg8) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.R1

end
-- ==== Proof.R1.lean ====
/-
  The second kernel region (the normalised neighbour sum): what the accumulator and the output buffer hold after each
  grid point, the region's proof data and its body obligation.  Within a row block the accumulator is cleared at the
  first column block and grows by one block product per point; the output buffer is written at the last column block
  only and is left untouched (and not written back) at the other points.
-/
import proofs.«169937_j55585466744854_1_alg».proof.Proof.R1RunA
import proofs.«169937_j55585466744854_1_alg».proof.Proof.R1RunB
import proofs.«169937_j55585466744854_1_alg».proof.Proof.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output buffer: a placeholder that nothing consults. -/
def out1_A_5 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x2048 .f32) (x1 : Vec F S2048x512 .f32) (x2 : Vec F S1024x512 .f32) (x3 : Vec F S1024x1 .f32) (x4 : Vec F S1x512 .f32) : Vec F S1024x512 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's stores cover the accumulator. -/
theorem scover1_A_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x2048 .f32) (x1 : Vec F S2048x512 .f32) (x2 : Vec F S1024x512 .f32) (x3 : Vec F S1024x1 .f32) (x4 : Vec F S1x512 .f32) (y : S1024x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x512.size (by sl_kernel_rfl) y

/-- What case A leaves in the accumulator. -/
def sout1_A_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x2048 .f32) (x1 : Vec F S2048x512 .f32) (x2 : Vec F S1024x512 .f32) (x3 : Vec F S1024x1 .f32) (x4 : Vec F S1x512 .f32) : Vec F S1024x512 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- Case B stores nothing into the output buffer: a placeholder that nothing consults. -/
def out1_B_5 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) : Vec F S1024x512 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's stores cover the accumulator. -/
theorem scover1_B_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) (y : S1024x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x512.size (by sl_kernel_rfl) y

/-- What case B leaves in the accumulator. -/
def sout1_B_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) : Vec F S1024x512 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's store covers the output buffer. -/
theorem cover1_C_5 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) (y : S1024x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x512.size (by sl_kernel_rfl) y

/-- What case C leaves in the output buffer. -/
def out1_C_5 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) : Vec F S1024x512 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's stores cover the accumulator. -/
theorem scover1_C_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) (y : S1024x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x512.size (by sl_kernel_rfl) y

/-- What case C leaves in the accumulator. -/
def sout1_C_0 (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) : Vec F S1024x512 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

section
variable (V : (c : Dev nD) → (b : Ref sig .tc) → Buf (Elt F) ((c : Thread nD τ).loc b))

/-! ## What the output buffer and the accumulator hold after each point -/

/-- The output buffer and the accumulator after the body at position `n`: the case the position is in, run at the
    point's buffers and input blocks, the accumulator read at what the position before left. -/
def outsAt1 (c : Dev nD) : (n : ℕ) → n < cfg1.N → Vec F S1024x512 .f32 × Vec F S1024x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer the region does not stage
    at anything; afterwards the accumulator at what the point before left, the others at anything; the generator
    register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The region's proof data on core `c`: the arrays as the region finds them; after the body each input's buffer at its
    block and the output's at `outsAt1`; the two windows that read the scaled features share that array, half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' buffers hold their blocks; the closed forms of the conditions say which case the
    point is in; the invariant hands the body the accumulator at what the point before left (at anything at the first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A_0 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A_0 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS_castSucc V c t, PhiS_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_C_0 _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_B_0 _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end

end Cert.KernelIdeal.R1

end
-- ==== Proof.R1Arrays.lean ====
/-
  The second kernel region's arrays among the core's unscoped buffers.  Two of its input windows read one array (the
  scaled features: once by column block, once by row block), so the region holds that array in two half shares; the
  buffers behind the arrays, each whole at the full share, are exactly the region's arrays at the same contents.
-/
import proofs.«169937_j55585466744854_1_alg».proof.Proof.R1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The region's arrays window by window: the adjacency matrix, the scaled features twice (a half share each), the
    inverse square-root degrees, the bias row, the result. -/
theorem arrays1_eq (c : Dev nD) (F' : (w : Fin cfg1.W) → Buf (Elt F) ((cfg1.win w).arr.view.loc (c.tc : Thread nD τ))) :
    ((dat1 V c).arrays F' : sProp 𝕄) = iprop(
      (((c : Thread nD τ).loc main_arg1) ↦{fullShare} F' 0) ∗ (((c : Thread nD τ).loc main_v12) ↦{fullShare.left} F' 1) ∗ (((c : Thread nD τ).loc main_v12) ↦{fullShare.right} F' 2)
      ∗ (((c : Thread nD τ).loc main_v5) ↦{fullShare} F' 3) ∗ (((c : Thread nD τ).loc main_v13) ↦{fullShare} F' 4) ∗ (((c : Thread nD τ).loc main_v14) ↦{fullShare} F' 5)) := by
  have h : ((dat1 V c).arrays F' : sProp 𝕄) = bigSep Finset.univ fun w : Fin cfg1.W => (((c : Thread nD τ).loc (Pipeline.arrRef spec1 w)) ↦{(dat1 V c).share w} F' w : sProp 𝕄) := by
    unfold Dat.arrays
    exact bigSep_congr fun w _ => by rw [(arr_whole1 w).set_eq_univ]
  rw [h, bigSep_W1]
  rfl

/-- The distinct buffers behind the region's arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄) = iprop(
      (((c : Thread nD τ).loc main_arg1) ↦{fullShare} V' main_arg1) ∗ (((c : Thread nD τ).loc main_v12) ↦{fullShare} V' main_v12)
      ∗ (((c : Thread nD τ).loc main_v5) ↦{fullShare} V' main_v5) ∗ (((c : Thread nD τ).loc main_v13) ↦{fullShare} V' main_v13) ∗ (((c : Thread nD τ).loc main_v14) ↦{fullShare} V' main_v14)) := by
  unfold Pipeline.arrBufs
  exact bigSep_eq_bigSepL_of_eq [main_arg1, main_v12, main_v5, main_v13, main_v14] (by decide) (by decide) _

/-- The buffers behind the arrays at contents `V'` are the region's arrays at `V'`: the shared array splits into its
    two half shares, -/
theorem arrays_of_arrBufs1 (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      ⊢ (dat1 V c).arrays fun w => V' (Pipeline.arrRef spec1 w) := by
  rw [arrays1_eq, arrBufs1_eq]
  iintro ⟨H0, H12, H5, H13, H14⟩
  ihave H12' := (pointsTo_share (PosShare.mem_left_op_right fullShare)).1 $$ H12
  icases H12' with ⟨Hl, Hr⟩
  isplitl [H0]; · iexact H0
  isplitl [Hl]; · iexact Hl
  isplitl [Hr]; · iexact Hr
  isplitl [H5]; · iexact H5
  isplitl [H13]; · iexact H13
  iexact H14

/-- and back: the two half shares join. -/
theorem arrBufs_of_arrays1 (c : Dev nD) (V' : (b : Ref sig .tc) → Buf (Elt F) ((c : Thread nD τ).loc b)) :
    ((dat1 V c).arrays fun w => V' (Pipeline.arrRef spec1 w))
      ⊢ (Pipeline.arrBufs (Ix := Unit) (Name := ℕ) (U := UR sig nD τ) (Lvl := ℕ) spec1 c V' : sProp 𝕄) := by
  rw [arrays1_eq, arrBufs1_eq]
  iintro ⟨H0, Hl, Hr, H5, H13, H14⟩
  isplitl [H0]; · iexact H0
  isplitl [Hl Hr]
  · iapply (pointsTo_share (PosShare.mem_left_op_right fullShare)).2
    isplitl [Hl]; · iexact Hl
    iexact Hr
  isplitl [H5]; · iexact H5
  isplitl [H13]; · iexact H13
  iexact H14

end

end Cert.KernelIdeal.R1

end
-- ==== Proof.KFrame.lean ====
/-
  The kernel program's run, at any float instance: the degree region, the host stretch that turns the row sums into
  inverse square-root degrees and scales the projected features, and the neighbour-sum region, composed in order.
  Between two items a core holds every unscoped buffer at a named valuation: the launch memory, then the degree
  region's row sums put in, then the host stretch folded over it, then the second region's result put in.  The run
  ends with every unscoped buffer at the last valuation, from which the argument arrays and the result are read.
-/
import proofs.«169937_j55585466744854_1_alg».proof.Proof.Region0
import proofs.«169937_j55585466744854_1_alg».proof.Proof.R1Arrays
import proofs.«169937_j55585466744854_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the degree region's entry). -/
abbrev W0 : Dev nD → Valuation τ sig (Elt F) := fun c b => m (c, b)
abbrev V1 : (c : Dev nD) → (b : Ref sig .tc) → Buf (Elt F) ((c : Thread nD τ).loc b) := fun c b => W0 m c b
/-- After the degree region: its arrays at what its write-backs leave, every other buffer as entered. -/
def W2 (c : Dev nD) : Valuation τ sig (Elt F) :=
  Pipeline.withArrays spec0 c (W0 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch (the neighbour-sum region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the neighbour-sum region: the result array at what its write-backs leave, every other buffer as entered
    (its other arrays are inputs, which a region leaves as it found them). -/
def W4 (c : Dev nD) : Valuation τ sig (Elt F) :=
  Function.update (W3 m c) main_v14 ((R1.dat1 (V3 m) c).arrAt 5 cfg1.N)
abbrev V4 : (c : Dev nD) → (b : Ref sig .tc) → Buf (Elt F) ((c : Thread nD τ).loc b) := fun c b => W4 m c b
theorem W4_out (c : Dev nD) : W4 m c (Proc.devRef .tc main_v14) = (R1.dat1 (V3 m) c).arrAt 5 cfg1.N := by
  unfold W4; exact Function.update_self _ _ _
theorem W4_of_ne (c : Dev nD) (b : Ref sig .tc) (hb : b ≠ main_v14) :
    W4 m c (Proc.devRef .tc b) = W3 m c (Proc.devRef .tc b) := by
  unfold W4; exact Function.update_of_ne (StableHlo.devRef_ne_of_ne hb) _ _

/-- The second region's arrays after its last point, window by window, are the last valuation's. -/
theorem hF1 (c : Dev nD) : (fun w => (R1.dat1 (V3 m) c).arrAt w cfg1.N) = fun w => V4 m c (Pipeline.arrRef spec1 w) := by
  funext w
  match w with
  | ⟨0, _⟩ => exact ((R1.dat1 (V3 m) c).arrAt_in 0 rfl _).trans ((R1.A_eq1 (V3 m) c 0).trans (W4_of_ne m c main_arg1 (by decide)).symm)
  | ⟨1, _⟩ => exact ((R1.dat1 (V3 m) c).arrAt_in 1 rfl _).trans ((R1.A_eq1 (V3 m) c 1).trans (W4_of_ne m c main_v12 (by decide)).symm)
  | ⟨2, _⟩ => exact ((R1.dat1 (V3 m) c).arrAt_in 2 rfl _).trans ((R1.A_eq1 (V3 m) c 2).trans (W4_of_ne m c main_v12 (by decide)).symm)
  | ⟨3, _⟩ => exact ((R1.dat1 (V3 m) c).arrAt_in 3 rfl _).trans ((R1.A_eq1 (V3 m) c 3).trans (W4_of_ne m c main_v5 (by decide)).symm)
  | ⟨4, _⟩ => exact ((R1.dat1 (V3 m) c).arrAt_in 4 rfl _).trans ((R1.A_eq1 (V3 m) c 4).trans (W4_of_ne m c main_v13 (by decide)).symm)
  | ⟨5, _⟩ => exact (W4_out m c).symm

/-- Its arrays at entry are the entry valuation's. -/
theorem hA1 (c : Dev nD) : (fun w => (R1.dat1 (V3 m) c).arrAt w 0) = fun w => V3 m c (Pipeline.arrRef spec1 w) := by
  funext w; exact (R1.A_eq1 (V3 m) c w)

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The degree region: entered from every unscoped buffer at the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers at the second region's entry are its arrays (the shared array in two half shares) and the rest. -/
theorem hsplit1 (c : Dev nD) :
    (unscopedBufs c (V3 m c) : sProp 𝕄) ⊢ iprop((R1.dat1 (V3 m) c).arrays ((R1.dat1 (V3 m) c).arrAt · 0)
      ∗ Pipeline.unscopedRest (Ix := Unit) (Name := ℕ) (U := UR sig nD τ) (Lvl := ℕ) spec1 c (V3 m c)) := by
  rw [Pipeline.unscopedBufs_split₀ (Pipeline.pin (pcfgs (F := F)) adm) 1 winFacts₀1.arr_unscoped c (V3 m c)]
  rw [show ((R1.dat1 (V3 m) c).arrAt · 0) = fun w => V3 m c (Pipeline.arrRef spec1 w) from hA1 m c]
  exact sep_mono (R1.arrays_of_arrBufs1 (V3 m) c (V3 m c)) .rfl

/-- The second region's arrays after its last point and the rest are the unscoped buffers at the last valuation. -/
theorem hjoin1 (c : Dev nD) :
    iprop((R1.dat1 (V3 m) c).arrays ((R1.dat1 (V3 m) c).arrAt · cfg1.N)
      ∗ Pipeline.unscopedRest (Ix := Unit) (Name := ℕ) (U := UR sig nD τ) (Lvl := ℕ) spec1 c (V3 m c)) ⊢ (unscopedBufs c (V4 m c) : sProp 𝕄) := by
  rw [Pipeline.unscopedBufs_split₀ (Pipeline.pin (pcfgs (F := F)) adm) 1 winFacts₀1.arr_unscoped c (V4 m c)]
  rw [show ((R1.dat1 (V3 m) c).arrAt · cfg1.N) = fun w => V4 m c (Pipeline.arrRef spec1 w) from hF1 m c]
  refine sep_mono (R1.arrBufs_of_arrays1 (V3 m) c (V4 m c)) (Entails.of_eq ?_)
  unfold Pipeline.unscopedRest
  exact bigSep_congr fun b hb => by
    rw [show V4 m c b = V3 m c b from W4_of_ne m c b fun e => (Finset.mem_sdiff.mp hb).2 (Finset.mem_image.mpr ⟨5, Finset.mem_univ _, e ▸ rfl⟩)]

set_option backward.isDefEq.respectTransparency.types false in
/-- The neighbour-sum region: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := hsplit1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from R1.hout1 (V3 m) c).trans ?_
    unfold Pipeline.ΦA
    iintro ⟨Hr, Hp⟩
    isplitl [Hp]; · iexact Hp
    isplitr; · iempintro
    iexact Hr
  hexit c := by
    have hjoin : (iprop((pdats m 1 c).arrays ((pdats m 1 c).arrAt · cfg1.N)
        ∗ Pipeline.unscopedRest (Ix := Unit) (Name := ℕ) (U := UR sig nD τ) (Lvl := ℕ) spec1 c (V3 m c)) : sProp 𝕄)
        ⊢ unscopedBufs c (V4 m c) := hjoin1 m c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each core's unscoped buffers hold the last valuation `W4`. -/
theorem run_W4 : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W0 m c (Proc.devRef .tc main_arg0) := W2_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W0 m c (Proc.devRef .tc main_arg1) := (W2_arr m c 0).trans (((R0.dat0 (V1 m) c).arrAt_in 0 rfl _).trans (R0.A_eq0 (V1 m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W0 m c (Proc.devRef .tc main_arg2) := W2_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W0 m c (Proc.devRef .tc main_arg3) := W2_of_ne m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W0 m c (Proc.devRef .tc main_arg4) := W2_of_ne m c main_arg4 (by decide)
    _ = m ((c : Thread nD τ).loc main_arg4) := rfl

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_W4 m ρ)

end Cert.KernelIdeal.KF

end
-- ==== Proof.Region0Value.lean ====
/-
  What the first pallas_call leaves in its result array: the row sums of the adjacency matrix.

  Point `t` of the sixteen reads rows `512 t … 512 t + 511` of the matrix, sums each of them over its 8192 entries and
  writes the 512 sums back as rows `512 t … 512 t + 511` of the one-column result.  Every block written back is therefore
  the corresponding block of ONE function of the result's index, `rowSums`: the sum of the matrix's row.  The sixteen
  blocks tile the result (row `r` is in block `r / 512`), so after the last point the result array is `rowSums`.
-/
import proofs.«169937_j55585466744854_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R0V

open Cert.KernelIdeal Cert.KernelIdeal.Gen
open Idealize.ShloMosaic Idealize.ShloMosaic.TcCoe Idealize.SL.Sem
open Idealize.ShloMosaic.ValueIdx
open Idealize.ShloMosaic.Pipeline (Dat)

/-- The two zero offsets of a whole-buffer access. -/
theorem hz : (![0, 0] : Fin 2 → Nat) = fun _ => 0 := funext fun a => by fin_cases a <;> rfl

/-! ## The body's arithmetic at an index -/

/-- A vector of `a` entries laid out as a column `[a, 1]` reads, at `(r, 0)`, the vector at `r`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The sum along the lanes of a 512 by 8192 block, read at row `r`: the sum of the row's 8192 entries. -/
theorem laneSum_apply (x0 : FVec Ideal S512x8192 .f32) (h : S512x8192.Reduces [1] S512) (hφ : FKind.Formats .f32)
    (hacc : (0x00000000#32 : BitVec 32) = 0x00000000#32) (r : Fin 512) :
    multiReduction (F := Ideal) .add [1] S512 x0 0x00000000#32 h hφ hacc (ix1 r) = ∑ k : Fin 8192, x0 (ix2 r k) := by
  refine (Ideal.multiReduction_add_single x0 0x00000000#32 h hφ hacc (ix1 r)).trans ?_
  refine Finset.sum_congr rfl fun k _ => congrArg x0 ?_
  funext a
  apply Fin.ext
  match a with
  | ⟨0, _⟩ => rfl
  | ⟨1, _⟩ => rfl

/-- The body's payload at `(r, 0)`: the sum of row `r` of the loaded block. -/
theorem pay_apply_ix (x0 : Vec Ideal S512x8192 .f32) (r : Fin 512) (u : Fin 1) :
    (k0_pay1 (F := Ideal) x0 : S512x1.Idx → EReal) (ix2 r u) = ∑ k : Fin 8192, x0 (ix2 r k) := by
  unfold k0_pay1
  refine (shapeCast_a_a1_apply _ _ r u).trans ?_
  exact laneSum_apply x0 _ _ _ r

/-- The same at any index of the column. -/
theorem pay_apply (x0 : Vec Ideal S512x8192 .f32) (y : S512x1.Idx) :
    (k0_pay1 (F := Ideal) x0 : S512x1.Idx → EReal) y = ∑ k : Fin 8192, x0 (ix2 (y 0 : Fin 512) k) :=
  (congrArg (k0_pay1 (F := Ideal) x0 : S512x1.Idx → EReal) (eq_ix2 y)).trans (pay_apply_ix x0 (y 0) (y 1))

/-! ## The blocks -/

/-- The printed index maps, decided over the grid: at point `t` both windows are on block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (V : (c : Dev nD) → (b : Ref sig .tc) → Buf (Elt Ideal) ((c : Thread nD τ).loc b))

/-- The input window's block at point `t` is rows `512 t … 512 t + 511` of the matrix. -/
theorem iblk_apply (c : Dev nD) (t : Fin cfg0.N) (r : Fin 512) (k : Fin 8192) (i : Fin 8192) (hi : i.val = 512 * t.val + r.val) :
    (R0.iblk0 V c 0 t : Vec Ideal S512x8192 .f32) (ix2 r k) = (V c main_arg1 : S8192x8192.Idx → EReal) (ix2 i k) := by
  obtain ⟨e0, e1, -, -⟩ := idx_facts t
  unfold R0.iblk0
  rw [View.read_apply]
  show V c main_arg1 _ = V c main_arg1 _
  congr 1
  funext a
  apply Fin.ext
  match a with
  | ⟨0, _⟩ => show win0_0.index t 0 * 512 + 1 * r.val = i.val; rw [e0, hi]; omega
  | ⟨1, _⟩ => show win0_0.index t 1 * 8192 + 1 * k.val = k.val; rw [e1]; omega

/-- The sum of every row of the matrix as the region finds it, as a function of the result's index. -/
def rowSums (c : Dev nD) : S8192x1.Idx → EReal :=
  fun idx => ∑ j : Fin 8192, (V c main_arg1 : S8192x8192.Idx → EReal) (ix2 (idx 0 : Fin 8192) j)

/-- What point `t` writes back is block `t` of `rowSums`. -/
theorem flushed_eq (c : Dev nD) (t : Fin cfg0.N) :
    (R0.dat0 V c).flushed 1 t = ((cfg0.win 1).blk t).view.read (Elt Ideal) (rowSums V c) := by
  show (cfg0.win 1).cut (grid0.coords t) ((R0.dat0 V c).after 1 t) = _
  rw [R0.after0_1]
  unfold R0.out0_1
  rw [View.canon_unit_zero hz]
  simp only [View.ld_unit_zero (S := S512x8192) hz]
  obtain ⟨-, -, e2, e3⟩ := idx_facts t
  funext y
  show (k0_pay1 (F := Ideal) (R0.iblk0 V c 0 t) : S512x1.Idx → EReal) y = rowSums V c (((cfg0.win 1).blk t).view.emb y)
  refine (pay_apply (R0.iblk0 V c 0 t) y).trans ?_
  unfold rowSums
  refine Finset.sum_congr rfl fun k _ => ?_
  refine iblk_apply V c t (y 0) k _ ?_
  show win0_1.index t (0 : Fin 2) * 512 + 1 * (y 0).val = 512 * t.val + (y 0).val
  rw [e2]; omega

/-- Every row of the result is in some point's block: row `r` in point `r / 512`'s. -/
theorem cover (i : S8192x1.Idx) : ∃ t : Fin cfg0.N, (cfg0.win 1).flush t = true ∧ i ∈ ((cfg0.win 1).blk t).view.set := by
  have hN : cfg0.N = 16 := N_0
  have hi0 : (i 0).val < 8192 := (i 0).isLt
  have hi1 : (i 1).val < 1 := (i 1).isLt
  obtain ⟨t, ht⟩ : ∃ t : Fin cfg0.N, t.val = (i 0).val / 512 := ⟨⟨(i 0).val / 512, by rw [hN]; omega⟩, rfl⟩
  obtain ⟨-, -, e2, e3⟩ := idx_facts t
  refine ⟨t, flush0_1 t, ?_⟩
  show i ∈ ((View.whole main_v0).slice (win0_1.rect t)).set
  rw [View.set_slice_whole, Rect.mem_set_unit]
  intro a
  match a with
  | ⟨0, _⟩ =>
    show win0_1.index t (0 : Fin 2) * 512 ≤ (i 0).val ∧ (i 0).val < win0_1.index t (0 : Fin 2) * 512 + 512
    rw [e2, ht]; omega
  | ⟨1, _⟩ =>
    show win0_1.index t (1 : Fin 2) * 1 ≤ (i 1).val ∧ (i 1).val < win0_1.index t (1 : Fin 2) * 1 + 1
    rw [e3]; omega

/-- The result array after the sixteen points: every row's sum. -/
theorem final (c : Dev nD) : (R0.dat0 V c).arrAt 1 cfg0.N = rowSums V c :=
  (R0.dat0 V c).arrAt_eq_of_cover 1 (rowSums V c) (fun t _ => flushed_eq V c t) (cover)

end Cert.KernelIdeal.R0V

namespace Cert.KernelIdeal.R0V

open Cert.KernelIdeal Cert.KernelIdeal.Gen
open Idealize.ShloMosaic Idealize.ShloMosaic.TcCoe Idealize.SL.Sem
open Idealize.ShloMosaic.ValueIdx

/-- Row `i` of the result array after the region: the sum of row `i` of the adjacency matrix. -/
theorem degsum (V : (c : Dev nD) → (b : Ref sig .tc) → Buf (Elt Ideal) ((c : Thread nD τ).loc b)) (c : Dev nD) (i : Fin 8192) :
    (R0.dat0 V c).arrAt 1 cfg0.N (ix2 i (0 : Fin 1)) = (∑ j : Fin 8192, (V c main_arg1 : S8192x8192.Idx → EReal) (ix2 i j) : EReal) :=
  congrFun (final V c) (ix2 i (0 : Fin 1))

end Cert.KernelIdeal.R0V

end
-- ==== Proof.R1Pieces.lean ====
/-
  The second pallas_call's stores, read back: what each of the three kinds of grid point leaves in the accumulator and
  what the last column block leaves in the output buffer, as the body's stored values of the point's input blocks and
  of the accumulator's earlier contents.  Every store is of a whole buffer, and every load reads a whole buffer, so the
  last store's value is what the buffer holds.
-/
import proofs.«169937_j55585466744854_1_alg».proof.Proof.R1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.Sem

variable {F : FTy → Type} [FloatOps F]

/-- The two zero offsets of a whole-buffer access. -/
theorem hz : (![0, 0] : Fin 2 → Nat) = fun _ => 0 := funext fun a => by fin_cases a <;> rfl

/-- At the first column block the accumulator is cleared and then holds the point's block product. -/
theorem soutA_eq (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x2048 .f32) (x1 : Vec F S2048x512 .f32) (x2 : Vec F S1024x512 .f32) (x3 : Vec F S1024x1 .f32) (x4 : Vec F S1x512 .f32) :
    sout1_A_0 c i arg2 harg2 arg3 harg3 arg4 harg4 arg5 harg5 arg6 harg6 arg7 harg7 arg8 harg8 hc0 hc1 x0 x1 x2 x3 x4 = k1_pay2 x0 x1 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  try sl_unfold_words
  rw [View.canon_cons_unit_zero (S := S1024x512) hz, View.readCov_unit_zero (S := S1024x512) _ hz]
  simp only [View.readAt_eq_ld, harg2.read_unread, harg3.read_unread, harg4.read_unread, harg5.read_unread, harg6.read_unread, harg8.read_unread,
    View.ld_unit_zero (S := S1024x2048) hz, View.ld_unit_zero (S := S2048x512) hz, View.ld_unit_zero (S := S1024x512) hz,
    View.ld_unit_zero (S := S1024x1) hz, View.ld_unit_zero (S := S1x512) hz]

/-- At a middle column block the accumulator grows by the point's block product. -/
theorem soutB_eq (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) :
    sout1_B_0 c i arg2 harg2 arg3 harg3 arg4 harg4 arg5 harg5 arg6 harg6 arg7 harg7 arg8 harg8 hc0 hc1 x0 x1 x2 x3 x4 xs0 = k1_pay2 x0 x1 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  try sl_unfold_words
  rw [View.canon_unit_zero (S := S1024x512) hz]
  simp only [View.readAt_eq_ld, harg2.read_unread, harg3.read_unread, harg4.read_unread, harg5.read_unread, harg6.read_unread, harg8.read_unread,
    View.ld_unit_zero (S := S1024x2048) hz, View.ld_unit_zero (S := S2048x512) hz, View.ld_unit_zero (S := S1024x512) hz,
    View.ld_unit_zero (S := S1024x1) hz, View.ld_unit_zero (S := S1x512) hz]

/-- At the last column block too. -/
theorem soutC_eq (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) :
    sout1_C_0 c i arg2 harg2 arg3 harg3 arg4 harg4 arg5 harg5 arg6 harg6 arg7 harg7 arg8 harg8 hc0 hc1 x0 x1 x2 x3 x4 xs0 = k1_pay2 x0 x1 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  try sl_unfold_words
  rw [View.canon_unit_zero (S := S1024x512) hz]
  simp only [View.readAt_eq_ld, harg2.read_unread, harg3.read_unread, harg4.read_unread, harg5.read_unread, harg6.read_unread, harg8.read_unread,
    View.ld_unit_zero (S := S1024x2048) hz, View.ld_unit_zero (S := S2048x512) hz, View.ld_unit_zero (S := S1024x512) hz,
    View.ld_unit_zero (S := S1024x1) hz, View.ld_unit_zero (S := S1x512) hz]

/-- At the last column block the output buffer takes the rectified, biased, scaled total of the grown accumulator and
    the node's own scaled features. -/
theorem outC_eq (c : Dev nD) (i : grid1.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x2048 .f32) (x1 : Vec F S2048x512 .f32) (x2 : Vec F S1024x512 .f32) (x3 : Vec F S1024x1 .f32) (x4 : Vec F S1x512 .f32) (xs0 : Vec F S1024x512 .f32) :
    out1_C_5 c i arg2 harg2 arg3 harg3 arg4 harg4 arg5 harg5 arg6 harg6 arg7 harg7 arg8 harg8 hc0 hc1 x0 x1 x2 x3 x4 xs0 = k1_pay3 (k1_pay2 x0 x1 xs0) x2 x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  try sl_unfold_words
  rw [View.canon_unit_zero (S := S1024x512) hz, View.readCov_unit_zero (S := S1024x512) _ hz]
  simp only [View.readAt_eq_ld, harg2.read_unread, harg3.read_unread, harg4.read_unread, harg5.read_unread, harg6.read_unread, harg8.read_unread,
    View.ld_unit_zero (S := S1024x2048) hz, View.ld_unit_zero (S := S2048x512) hz, View.ld_unit_zero (S := S1024x512) hz,
    View.ld_unit_zero (S := S1024x1) hz, View.ld_unit_zero (S := S1x512) hz]

end Cert.KernelIdeal.R1

end
-- ==== Proof.Spec.lean ====
/-
  The mathematics of the two programs, as functions of the argument arrays over the extended reals.

  A graph-convolution layer on 8192 nodes with 512 features: the adjacency matrix gets a self loop per node, is
  normalised symmetrically by the inverse square roots of the row degrees, multiplies the projected node features
  (rows below 4096 projected by one weight matrix, the others by a second one), a bias is added and a leaky
  rectifier applied.  `outK` is the arrangement that scales the features by the inverse square root of the degree
  first, sums the neighbours in four blocks of 2048 columns, adds the node's own scaled features and scales the
  total; `outR` is the arrangement that normalises every entry of the matrix first, guarding nodes of degree
  zero.  On a 0/1 adjacency matrix and real-valued features they are the same function (Proof/Bridge.lean).
-/
import Idealize.ShloMosaic.PureOps.Ideal
import Idealize.ShloMosaic.Lib.ValueIdx

noncomputable section

open scoped BigOperators

namespace Cert.GcnSpec

open Idealize.ShloMosaic Idealize.ShloMosaic.ValueIdx

abbrev SX : Shape := ⟨2, ![8192, 512]⟩
abbrev SA : Shape := ⟨2, ![8192, 8192]⟩
abbrev SW : Shape := ⟨2, ![512, 512]⟩
abbrev SB : Shape := ⟨1, ![512]⟩

/-- The slope of the leaky rectifier on negative values, as both programs spell it. -/
def slope : EReal := Ideal.ofBits .f32 0x3C23D70A#32

/-- The leaky rectifier: the identity on nonnegative values, the slope times the value below zero. -/
def leaky (s : EReal) : EReal := if 0 ≤ s then s else s * slope

/-- The projected node features: row `i` of `x` times `wr` for the first 4096 nodes, times `wd` for the others. -/
def proj (x : SX.Idx → EReal) (wr wd : SW.Idx → EReal) (i : Fin 8192) (c : Fin 512) : EReal :=
  if i.val < 4096 then ∑ k : Fin 512, x (ix2 i k) * wr (ix2 k c) else ∑ k : Fin 512, x (ix2 i k) * wd (ix2 k c)

/-- Column `j` of the `kb`-th block of 2048 columns. -/
def col (kb : Fin 4) (j : Fin 2048) : Fin 8192 := ⟨kb.val * 2048 + j.val, by omega⟩

/-! ## Features scaled first, neighbours summed block by block -/

/-- The inverse square root of a node's degree, the self loop counted as `+ 1` after the row sum. -/
def dK (adj : SA.Idx → EReal) (i : Fin 8192) : EReal := Ideal.rsqrt ((∑ j : Fin 8192, adj (ix2 i j)) + 1)

/-- A node's features scaled by its own inverse square-root degree. -/
def hsK (adj : SA.Idx → EReal) (h : Fin 8192 → Fin 512 → EReal) (j : Fin 8192) (c : Fin 512) : EReal := h j c * dK adj j

/-- The neighbours' scaled features summed over the four column blocks. -/
def accK (adj : SA.Idx → EReal) (h : Fin 8192 → Fin 512 → EReal) (i : Fin 8192) (c : Fin 512) : EReal :=
  ∑ kb : Fin 4, ∑ j : Fin 2048, adj (ix2 i (col kb j)) * hsK adj h (col kb j) c

def outK (adj : SA.Idx → EReal) (h : Fin 8192 → Fin 512 → EReal) (bias : SB.Idx → EReal) (i : Fin 8192) (c : Fin 512) : EReal :=
  leaky (dK adj i * (accK adj h i c + hsK adj h i c) + bias (ix1 c))

/-! ## The matrix normalised first -/

/-- The identity matrix's entry. -/
def eye (i j : Fin 8192) : EReal := if i = j then 1 else 0

/-- A node's degree, the self loop added entry by entry before the row sum. -/
def degR (adj : SA.Idx → EReal) (i : Fin 8192) : EReal := ∑ j : Fin 8192, (adj (ix2 i j) + eye i j)

/-- The inverse square root of the degree, zero for a node whose degree is not positive. -/
def dR (adj : SA.Idx → EReal) (i : Fin 8192) : EReal := if 0 < degR adj i then Ideal.rsqrt (degR adj i) else 0

def outR (adj : SA.Idx → EReal) (h : Fin 8192 → Fin 512 → EReal) (bias : SB.Idx → EReal) (i : Fin 8192) (c : Fin 512) : EReal :=
  leaky ((∑ j : Fin 8192, (adj (ix2 i j) + eye i j) * dR adj i * dR adj j * h j c) + bias (ix1 c))

end Cert.GcnSpec

end
-- ==== Proof.R1Pay.lean ====
/-
  The second pallas_call's arithmetic at an index, over the extended reals.

  Its three stored values: the cleared accumulator is zero; the grown accumulator at `(r, c)` is what it held there plus
  the sum over the 2048 columns of the block of the products of the matrix block's row `r` with the scaled features'
  column `c` (the two truncations to sixteen bits are the identity on ideal values); the output block at `(r, c)` is the
  leaky rectifier of the row's inverse square-root degree times (accumulator plus the node's own scaled features) plus
  the bias.
-/
import proofs.«169937_j55585466744854_1_alg».proof.Proof.Gen.KernelIdeal.Skeleton
import proofs.«169937_j55585466744854_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.KernelIdeal.R1V

open Cert.KernelIdeal Cert.KernelIdeal.Gen
open Idealize.ShloMosaic Idealize.SL.Sem
open Idealize.ShloMosaic.ValueIdx

/-- A column `[a, 1]` copied along the rows of `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The cleared accumulator is zero everywhere. -/
theorem pay1_apply (y : S1024x512.Idx) : (k1_pay1 (F := Ideal) : S1024x512.Idx → EReal) y = 0 := by
  unfold k1_pay1
  refine (congrFun (shapeCast_self _ _) y).trans ?_
  exact Ideal.ofBits_zero_f32

/-- The block product at an entry: the sum over the block's 2048 columns. -/
theorem matmul_apply (A : FVec Ideal S1024x2048 .bf16) (B : FVec Ideal S2048x512 .bf16) (r : Fin 1024) (c : Fin 512) :
    matmul (F := Ideal) dot_S1024x2048_S2048x512_S1024x512_1_0_0_1_n_n none A B (constant (F := Ideal) S1024x512 .f32 0x00000000#32) (ix2 r c)
      = ∑ j : Fin 2048, A (ix2 r j) * B (ix2 j c) := by
  refine (Ideal.matmul_constant_zero_apply dot_S1024x2048_S2048x512_S1024x512_1_0_0_1_n_n none A B (ix2 r c)).trans ?_
  rw [← Equiv.sum_comp (contrEquiv1 dot_S1024x2048_S2048x512_S1024x512_1_0_0_1_n_n 2048 rfl rfl).symm]
  refine Finset.sum_congr rfl fun j _ => ?_
  have c2 := contrEquiv1_symm_val dot_S1024x2048_S2048x512_S1024x512_1_0_0_1_n_n 2048 rfl rfl j
  have l2 : dot_S1024x2048_S2048x512_S1024x512_1_0_0_1_n_n.lhsIdx (ix2 r c) ((contrEquiv1 _ 2048 rfl rfl).symm j) = ix2 r j := by
    funext ax; apply Fin.ext
    match ax with
    | ⟨0, _⟩ => simp [DotDims.lhsIdx, dot_S1024x2048_S2048x512_S1024x512_1_0_0_1_n_n]; rfl
    | ⟨1, _⟩ => simp [DotDims.lhsIdx, dot_S1024x2048_S2048x512_S1024x512_1_0_0_1_n_n]; exact c2
  have r2 : dot_S1024x2048_S2048x512_S1024x512_1_0_0_1_n_n.rhsIdx (ix2 r c) ((contrEquiv1 _ 2048 rfl rfl).symm j) = ix2 j c := by
    funext ax; apply Fin.ext
    match ax with
    | ⟨0, _⟩ => simp [DotDims.rhsIdx, dot_S1024x2048_S2048x512_S1024x512_1_0_0_1_n_n]; exact c2
    | ⟨1, _⟩ => simp [DotDims.rhsIdx, dot_S1024x2048_S2048x512_S1024x512_1_0_0_1_n_n]; rfl
  rw [l2, r2]

/-- The grown accumulator at an entry: what it held plus the block product there. -/
theorem pay2_apply (v3 : Vec Ideal S1024x2048 .f32) (v5 : Vec Ideal S2048x512 .f32) (v8 : Vec Ideal S1024x512 .f32) (r : Fin 1024) (c : Fin 512) :
    (k1_pay2 (F := Ideal) v3 v5 v8 : S1024x512.Idx → EReal) (ix2 r c) = v8 (ix2 r c) + ∑ j : Fin 2048, v3 (ix2 r j) * v5 (ix2 j c) := by
  unfold k1_pay2
  refine (congrFun (shapeCast_self _ _) (ix2 r c)).trans ?_
  refine congrArg (v8 (ix2 r c) + ·) ?_
  refine (matmul_apply _ _ r c).trans ?_
  refine Finset.sum_congr rfl fun j _ => ?_
  refine congrArg (v3 (ix2 r j) * ·) ?_
  exact congrFun (shapeCast_self v5 _) (ix2 j c)

/-- The word-level choice between a value and its scaled copy by the comparison with zero is the rectifier's choice. -/
theorem select_oge_zero (s t : EReal) : Scalar.select (Ideal.cmp .oge s 0) s t = if 0 ≤ s then s else t := by
  unfold Scalar.select Ideal.cmp
  by_cases h : (0 : EReal) ≤ s
  · simp [h]
  · simp [h]

/-- The kernel's rectifier, entry by entry, is the specification's. -/
theorem leaky_select (P : FVec Ideal S1024x512 .f32) (y : S1024x512.Idx) :
    select (cmpf .oge P (broadcast S1024x512 (Scalar.ofBits (F := Ideal) .f32 0x00000000#32))) P
        (mulf P (broadcast S1024x512 (Scalar.ofBits (F := Ideal) .f32 0x3C23D70A#32))) y = Cert.GcnSpec.leaky (P y) := by
  show Scalar.select (Ideal.cmp .oge (P y) (Ideal.ofBits .f32 0x00000000#32)) (P y) (P y * Ideal.ofBits .f32 0x3C23D70A#32) = _
  rw [Ideal.ofBits_zero_f32]
  unfold Cert.GcnSpec.leaky Cert.GcnSpec.slope
  exact select_oge_zero _ _

/-- What the rectifier is applied to, entry by entry. -/
theorem pre_apply (v17 v18 : Vec Ideal S1024x512 .f32) (v21 : Vec Ideal S1024x1 .f32) (v25 : Vec Ideal S1x512 .f32) (r : Fin 1024) (c : Fin 512) :
    addf (F := Ideal) (φ := .f32) (mulf (F := Ideal) (φ := .f32) (broadcastTo S1024x512 (shapeCast S1024x1 v21 shapeCasts_S1024x1_S1024x1) broadcasts_S1024x1_S1024x512)
            (addf (F := Ideal) (φ := .f32) v17 (shapeCast S1024x512 v18 shapeCasts_S1024x512_S1024x512)))
        (broadcastTo S1024x512 (shapeCast S1x512 v25 shapeCasts_S1x512_S1x512) broadcasts_S1x512_S1024x512) (ix2 r c)
      = v21 (ix2 r (0 : Fin 1)) * (v17 (ix2 r c) + v18 (ix2 r c)) + v25 (ix2 (0 : Fin 1) c) := by
  rw [shapeCast_self, shapeCast_self, shapeCast_self]
  show broadcastTo S1024x512 v21 broadcasts_S1024x1_S1024x512 (ix2 r c) * (v17 (ix2 r c) + v18 (ix2 r c))
      + broadcastTo S1024x512 v25 broadcasts_S1x512_S1024x512 (ix2 r c) = _
  rw [broadcastTo_a1_ab_apply, broadcastTo_1b_ab_apply]

/-- The output block at an entry. -/
theorem pay3_apply (v17 v18 : Vec Ideal S1024x512 .f32) (v21 : Vec Ideal S1024x1 .f32) (v25 : Vec Ideal S1x512 .f32) (r : Fin 1024) (c : Fin 512) :
    (k1_pay3 (F := Ideal) v17 v18 v21 v25 : S1024x512.Idx → EReal) (ix2 r c)
      = Cert.GcnSpec.leaky (v21 (ix2 r (0 : Fin 1)) * (v17 (ix2 r c) + v18 (ix2 r c)) + v25 (ix2 (0 : Fin 1) c)) := by
  unfold k1_pay3
  refine (leaky_select _ (ix2 r c)).trans ?_
  exact congrArg Cert.GcnSpec.leaky (pre_apply v17 v18 v21 v25 r c)

end Cert.KernelIdeal.R1V

end
-- ==== Proof.R1Value.lean ====
/-
  What the second pallas_call leaves in its result array, over the extended reals.

  The grid is eight row blocks by four column blocks; point `t` is row block `t / 4`, column block `t % 4`.  Within a
  row block the accumulator after column block `kb` holds, at `(r, c)`, the sum over the column blocks up to `kb` of
  the products of the matrix's row with the scaled features' column, 2048 terms per block (an induction on the point:
  cleared and first block at `kb = 0`, one more block at each later point).  At `kb = 3` the output block is the leaky
  rectifier of the row's inverse square-root degree times (the four-block sum plus the node's own scaled features) plus
  the bias; that block is written back as rows `1024 (t / 4) …` of the result, and the eight blocks tile it.
-/
import proofs.«169937_j55585466744854_1_alg».proof.Proof.R1Pieces
import proofs.«169937_j55585466744854_1_alg».proof.Proof.R1Pay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.KernelIdeal.R1V

open Cert.KernelIdeal Cert.KernelIdeal.Gen
open Idealize.ShloMosaic Idealize.ShloMosaic.TcCoe Idealize.SL.Sem
open Idealize.ShloMosaic.ValueIdx
open Idealize.ShloMosaic.Pipeline (Dat)

/-! ## The blocks -/

/-- The printed index maps, decided over the grid: at point `t` the matrix window is on block `(t / 4, t % 4)`, the
    neighbours' features on block row `t % 4`, the node's own features, the degrees and the output on block row
    `t / 4`, the bias on its one block. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0 :=
  (by decide +kernel : ∀ t : Fin grid1.N, _)

variable (V : (c : Dev nD) → (b : Ref sig .tc) → Buf (Elt Ideal) ((c : Thread nD τ).loc b))

/-- The four arrays the region reads, as functions of their indices into the extended reals. -/
abbrev adjA (c : Dev nD) : S8192x8192.Idx → EReal := V c main_arg1
abbrev hsA (c : Dev nD) : S8192x512.Idx → EReal := V c main_v12
abbrev dA (c : Dev nD) : S8192x1.Idx → EReal := V c main_v5
abbrev bA (c : Dev nD) : S1x512.Idx → EReal := V c main_v13
/-- The matrix block and the neighbours' features block at a point, likewise. -/
abbrev blk0 (c : Dev nD) (t : Fin cfg1.N) : S1024x2048.Idx → EReal := R1.iblk1 V c 0 t
abbrev blk1 (c : Dev nD) (t : Fin cfg1.N) : S2048x512.Idx → EReal := R1.iblk1 V c 1 t

/-- The matrix window's block at point `t`: rows `1024 (t / 4) …`, columns `2048 (t % 4) …` of the matrix. -/
theorem iblk0_apply (c : Dev nD) (t : Fin cfg1.N) (r : Fin 1024) (j : Fin 2048) (i k : Fin 8192)
    (hi : i.val = 1024 * (t.val / 4) + r.val) (hk : k.val = 2048 * (t.val % 4) + j.val) :
    (R1.iblk1 V c 0 t : Vec Ideal S1024x2048 .f32) (ix2 r j) = (V c main_arg1 : S8192x8192.Idx → EReal) (ix2 i k) := by
  obtain ⟨e0, e1, -⟩ := idx_facts t
  unfold R1.iblk1
  rw [View.read_apply]
  show V c main_arg1 _ = V c main_arg1 _
  congr 1
  funext a
  apply Fin.ext
  match a with
  | ⟨0, _⟩ => show win1_0.index t 0 * 1024 + 1 * r.val = i.val; rw [e0, hi]; omega
  | ⟨1, _⟩ => show win1_0.index t 1 * 2048 + 1 * j.val = k.val; rw [e1, hk]; omega

/-- The neighbours' scaled features at point `t`: rows `2048 (t % 4) …`. -/
theorem iblk1_apply (c : Dev nD) (t : Fin cfg1.N) (j : Fin 2048) (cc : Fin 512) (k : Fin 8192)
    (hk : k.val = 2048 * (t.val % 4) + j.val) :
    (R1.iblk1 V c 1 t : Vec Ideal S2048x512 .f32) (ix2 j cc) = (V c main_v12 : S8192x512.Idx → EReal) (ix2 k cc) := by
  obtain ⟨-, -, e0, e1, -⟩ := idx_facts t
  unfold R1.iblk1
  rw [View.read_apply]
  show V c main_v12 _ = V c main_v12 _
  congr 1
  funext a
  apply Fin.ext
  match a with
  | ⟨0, _⟩ => show win1_1.index t 0 * 2048 + 1 * j.val = k.val; rw [e0, hk]; omega
  | ⟨1, _⟩ => show win1_1.index t 1 * 512 + 1 * cc.val = cc.val; rw [e1]; omega

/-- The nodes' own scaled features at point `t`: rows `1024 (t / 4) …`. -/
theorem iblk2_apply (c : Dev nD) (t : Fin cfg1.N) (r : Fin 1024) (cc : Fin 512) (i : Fin 8192)
    (hi : i.val = 1024 * (t.val / 4) + r.val) :
    (R1.iblk1 V c 2 t : Vec Ideal S1024x512 .f32) (ix2 r cc) = (V c main_v12 : S8192x512.Idx → EReal) (ix2 i cc) := by
  obtain ⟨-, -, -, -, e0, e1, -⟩ := idx_facts t
  unfold R1.iblk1
  rw [View.read_apply]
  show V c main_v12 _ = V c main_v12 _
  congr 1
  funext a
  apply Fin.ext
  match a with
  | ⟨0, _⟩ => show win1_2.index t 0 * 1024 + 1 * r.val = i.val; rw [e0, hi]; omega
  | ⟨1, _⟩ => show win1_2.index t 1 * 512 + 1 * cc.val = cc.val; rw [e1]; omega

/-- The inverse square-root degrees at point `t`: rows `1024 (t / 4) …`. -/
theorem iblk3_apply (c : Dev nD) (t : Fin cfg1.N) (r : Fin 1024) (u : Fin 1) (i : Fin 8192)
    (hi : i.val = 1024 * (t.val / 4) + r.val) :
    (R1.iblk1 V c 3 t : Vec Ideal S1024x1 .f32) (ix2 r u) = (V c main_v5 : S8192x1.Idx → EReal) (ix2 i (0 : Fin 1)) := by
  obtain ⟨-, -, -, -, -, -, e0, e1, -⟩ := idx_facts t
  have hu : u.val = 0 := by omega
  unfold R1.iblk1
  rw [View.read_apply]
  show V c main_v5 _ = V c main_v5 _
  congr 1
  funext a
  apply Fin.ext
  match a with
  | ⟨0, _⟩ => show win1_3.index t 0 * 1024 + 1 * r.val = i.val; rw [e0, hi]; omega
  | ⟨1, _⟩ => show win1_3.index t 1 * 1 + 1 * u.val = 0; rw [e1]; omega

/-- The bias row at every point. -/
theorem iblk4_apply (c : Dev nD) (t : Fin cfg1.N) (u : Fin 1) (cc : Fin 512) :
    (R1.iblk1 V c 4 t : Vec Ideal S1x512 .f32) (ix2 u cc) = (V c main_v13 : S1x512.Idx → EReal) (ix2 (0 : Fin 1) cc) := by
  obtain ⟨-, -, -, -, -, -, -, -, e0, e1, -⟩ := idx_facts t
  have hu : u.val = 0 := by omega
  unfold R1.iblk1
  rw [View.read_apply]
  show V c main_v13 _ = V c main_v13 _
  congr 1
  funext a
  apply Fin.ext
  match a with
  | ⟨0, _⟩ => show win1_4.index t 0 * 1 + 1 * u.val = 0; rw [e0]; omega
  | ⟨1, _⟩ => show win1_4.index t 1 * 512 + 1 * cc.val = cc.val; rw [e1]; omega

/-! ## The accumulator -/

/-- One column block's contribution to row `i`, feature `cc`. -/
def term (c : Dev nD) (i : Fin 8192) (cc : Fin 512) (kb : Fin 4) : EReal :=
  ∑ j : Fin 2048, adjA V c (ix2 i (Cert.GcnSpec.col kb j)) * hsA V c (ix2 (Cert.GcnSpec.col kb j) cc)

/-- The same with the block named by a number (zero past the four blocks). -/
def termN (c : Dev nD) (i : Fin 8192) (cc : Fin 512) (kb : ℕ) : EReal :=
  if h : kb < 4 then term V c i cc ⟨kb, h⟩ else 0

/-- The contributions of the first `n` column blocks. -/
def partialSum (c : Dev nD) (i : Fin 8192) (cc : Fin 512) (n : ℕ) : EReal :=
  ∑ kb ∈ Finset.range n, termN V c i cc kb

/-- The block product the body adds at point `t` is column block `t % 4`'s contribution. -/
theorem blockProduct_eq (c : Dev nD) (t : Fin cfg1.N) (r : Fin 1024) (cc : Fin 512) (i : Fin 8192)
    (hi : i.val = 1024 * (t.val / 4) + r.val) :
    (∑ j : Fin 2048, blk0 V c t (ix2 r j) * blk1 V c t (ix2 j cc) : EReal) = termN V c i cc (t.val % 4) := by
  have h4 : t.val % 4 < 4 := Nat.mod_lt _ (by decide)
  unfold termN
  rw [dif_pos h4]
  unfold term
  refine Finset.sum_congr rfl fun j _ => ?_
  have hk : (Cert.GcnSpec.col ⟨t.val % 4, h4⟩ j).val = 2048 * (t.val % 4) + j.val := by
    show t.val % 4 * 2048 + j.val = 2048 * (t.val % 4) + j.val
    omega
  exact congrArg₂ (fun a b : EReal => a * b) (iblk0_apply V c t r j i (Cert.GcnSpec.col ⟨t.val % 4, h4⟩ j) hi hk)
    (iblk1_apply V c t j cc (Cert.GcnSpec.col ⟨t.val % 4, h4⟩ j) hk)

/-- At the first column block of a row block the accumulator holds that block's contribution. -/
theorem acc_A (c : Dev nD) (t : Fin cfg1.N) (h0 : t.val % 4 = 0) (r : Fin 1024) (cc : Fin 512) (i : Fin 8192)
    (hi : i.val = 1024 * (t.val / 4) + r.val) :
    ((R1.outsAt1 V c t.val t.isLt).2 : S1024x512.Idx → EReal) (ix2 r cc) = termN V c i cc (t.val % 4) := by
  have h1 : ¬t.val % 4 = 3 := by omega
  rw [R1.outsAt1_A V c t h0 h1]
  dsimp only
  refine (congrFun (R1.soutA_eq c (grid1.coords t) (R1.ms1_0 t) (R1.hs1_0 t) (R1.ms1_1 t) (R1.hs1_1 t) (R1.ms1_2 t) (R1.hs1_2 t) (R1.ms1_3 t) (R1.hs1_3 t) (R1.ms1_4 t) (R1.hs1_4 t) (R1.ms1_5 t) (R1.hs1_5 t) R1.scM1_0 (Memref.isWhole_whole _) ((R1.hcond1_0 t).mpr h0) (fun h => h1 ((R1.hcond1_1 t).mp h)) (R1.iblk1 V c 0 t) (R1.iblk1 V c 1 t) (R1.iblk1 V c 2 t) (R1.iblk1 V c 3 t) (R1.iblk1 V c 4 t)) (ix2 r cc)).trans ?_
  refine (pay2_apply (R1.iblk1 V c 0 t) (R1.iblk1 V c 1 t) (k1_pay1 (F := Ideal)) r cc).trans ?_
  rw [pay1_apply, zero_add]
  exact blockProduct_eq V c t r cc i hi

/-- At a later column block it grows by that block's contribution. -/
theorem acc_BC (c : Dev nD) (t : Fin cfg1.N) (h0 : ¬t.val % 4 = 0) (r : Fin 1024) (cc : Fin 512) (i : Fin 8192)
    (hi : i.val = 1024 * (t.val / 4) + r.val) :
    ((R1.outsAt1 V c t.val t.isLt).2 : S1024x512.Idx → EReal) (ix2 r cc)
      = ((R1.outsAt1 V c (t.val - 1) (Nat.lt_of_le_of_lt (Nat.sub_le _ _) t.isLt)).2 : S1024x512.Idx → EReal) (ix2 r cc) + termN V c i cc (t.val % 4) := by
  by_cases h1 : t.val % 4 = 3
  · rw [R1.outsAt1_C V c t h0 h1]
    dsimp only
    refine (congrFun (R1.soutC_eq c (grid1.coords t) (R1.ms1_0 t) (R1.hs1_0 t) (R1.ms1_1 t) (R1.hs1_1 t) (R1.ms1_2 t) (R1.hs1_2 t) (R1.ms1_3 t) (R1.hs1_3 t) (R1.ms1_4 t) (R1.hs1_4 t) (R1.ms1_5 t) (R1.hs1_5 t) R1.scM1_0 (Memref.isWhole_whole _) (fun h => h0 ((R1.hcond1_0 t).mp h)) ((R1.hcond1_1 t).mpr h1) (R1.iblk1 V c 0 t) (R1.iblk1 V c 1 t) (R1.iblk1 V c 2 t) (R1.iblk1 V c 3 t) (R1.iblk1 V c 4 t) (R1.outsAt1 V c (t.val - 1) (Nat.lt_of_le_of_lt (Nat.sub_le _ _) t.isLt)).2) (ix2 r cc)).trans ?_
    refine (pay2_apply (R1.iblk1 V c 0 t) (R1.iblk1 V c 1 t) (R1.outsAt1 V c (t.val - 1) (Nat.lt_of_le_of_lt (Nat.sub_le _ _) t.isLt)).2 r cc).trans ?_
    exact congrArg (_ + ·) (blockProduct_eq V c t r cc i hi)
  · rw [R1.outsAt1_B V c t h0 h1]
    dsimp only
    refine (congrFun (R1.soutB_eq c (grid1.coords t) (R1.ms1_0 t) (R1.hs1_0 t) (R1.ms1_1 t) (R1.hs1_1 t) (R1.ms1_2 t) (R1.hs1_2 t) (R1.ms1_3 t) (R1.hs1_3 t) (R1.ms1_4 t) (R1.hs1_4 t) (R1.ms1_5 t) (R1.hs1_5 t) R1.scM1_0 (Memref.isWhole_whole _) (fun h => h0 ((R1.hcond1_0 t).mp h)) (fun h => h1 ((R1.hcond1_1 t).mp h)) (R1.iblk1 V c 0 t) (R1.iblk1 V c 1 t) (R1.iblk1 V c 2 t) (R1.iblk1 V c 3 t) (R1.iblk1 V c 4 t) (R1.outsAt1 V c (t.val - 1) (Nat.lt_of_le_of_lt (Nat.sub_le _ _) t.isLt)).2) (ix2 r cc)).trans ?_
    refine (pay2_apply (R1.iblk1 V c 0 t) (R1.iblk1 V c 1 t) (R1.outsAt1 V c (t.val - 1) (Nat.lt_of_le_of_lt (Nat.sub_le _ _) t.isLt)).2 r cc).trans ?_
    exact congrArg (_ + ·) (blockProduct_eq V c t r cc i hi)

/-- After point `n` the accumulator holds the contributions of the column blocks up to `n % 4`: by induction on the
    point. -/
theorem acc_eq (c : Dev nD) : ∀ (n : ℕ) (hn : n < cfg1.N) (r : Fin 1024) (cc : Fin 512) (i : Fin 8192),
    i.val = 1024 * (n / 4) + r.val →
    ((R1.outsAt1 V c n hn).2 : S1024x512.Idx → EReal) (ix2 r cc) = partialSum V c i cc (n % 4 + 1)
  | 0, hn, r, cc, i, hi => by
    refine (acc_A V c ⟨0, hn⟩ rfl r cc i hi).trans ?_
    show termN V c i cc 0 = partialSum V c i cc 1
    unfold partialSum
    rw [Finset.sum_range_one]
  | n + 1, hn, r, cc, i, hi => by
    by_cases h0 : (n + 1) % 4 = 0
    · refine (acc_A V c ⟨n + 1, hn⟩ h0 r cc i hi).trans ?_
      show termN V c i cc ((n + 1) % 4) = partialSum V c i cc ((n + 1) % 4 + 1)
      unfold partialSum
      rw [h0, Nat.zero_add, Finset.sum_range_one]
    · refine (acc_BC V c ⟨n + 1, hn⟩ h0 r cc i hi).trans ?_
      show ((R1.outsAt1 V c n _).2 : S1024x512.Idx → EReal) (ix2 r cc) + termN V c i cc ((n + 1) % 4) = partialSum V c i cc ((n + 1) % 4 + 1)
      rw [acc_eq c n (Nat.lt_of_succ_lt hn) r cc i (by rw [hi]; omega)]
      unfold partialSum
      rw [show n % 4 + 1 = (n + 1) % 4 from by omega, Finset.sum_range_succ]

/-- The four column blocks' contributions, summed over the blocks. -/
theorem partialSum_four (c : Dev nD) (i : Fin 8192) (cc : Fin 512) :
    partialSum V c i cc 4 = ∑ kb : Fin 4, term V c i cc kb := by
  unfold partialSum
  rw [Finset.sum_range]
  refine Finset.sum_congr rfl fun kb _ => ?_
  unfold termN
  rw [dif_pos kb.isLt]

/-! ## The output block -/

/-- The result as one function of its index. -/
def outFn (c : Dev nD) : S8192x512.Idx → EReal := fun idx =>
  Cert.GcnSpec.leaky (dA V c (ix2 (idx 0 : Fin 8192) (0 : Fin 1))
    * ((∑ kb : Fin 4, term V c (idx 0 : Fin 8192) (idx 1 : Fin 512) kb) + hsA V c (ix2 (idx 0 : Fin 8192) (idx 1 : Fin 512)))
    + bA V c (ix2 (0 : Fin 1) (idx 1 : Fin 512)))

/-- At the last column block of a row block the output buffer holds the rows' results. -/
theorem out_apply (c : Dev nD) (t : Fin cfg1.N) (h3 : t.val % 4 = 3) (y : S1024x512.Idx) (i : Fin 8192) (cc : Fin 512)
    (hi : i.val = 1024 * (t.val / 4) + (y 0).val) (hc : cc.val = (y 1).val) :
    ((R1.outsAt1 V c t.val t.isLt).1 : S1024x512.Idx → EReal) y
      = Cert.GcnSpec.leaky (dA V c (ix2 i (0 : Fin 1))
          * ((∑ kb : Fin 4, term V c i cc kb) + hsA V c (ix2 i cc))
          + bA V c (ix2 (0 : Fin 1) cc)) := by
  have h0 : ¬t.val % 4 = 0 := by omega
  obtain rfl : cc = (y 1 : Fin 512) := Fin.ext hc
  have hacc : ((R1.outsAt1 V c t.val t.isLt).2 : S1024x512.Idx → EReal) (ix2 (y 0 : Fin 1024) (y 1 : Fin 512)) = ∑ kb : Fin 4, term V c i (y 1 : Fin 512) kb := by
    rw [acc_eq V c t.val t.isLt (y 0) (y 1) i hi, h3]
    exact partialSum_four V c i (y 1)
  rw [R1.outsAt1_C V c t h0 h3] at hacc ⊢
  dsimp only at hacc ⊢
  rw [R1.soutC_eq c (grid1.coords t) (R1.ms1_0 t) (R1.hs1_0 t) (R1.ms1_1 t) (R1.hs1_1 t) (R1.ms1_2 t) (R1.hs1_2 t) (R1.ms1_3 t) (R1.hs1_3 t) (R1.ms1_4 t) (R1.hs1_4 t) (R1.ms1_5 t) (R1.hs1_5 t) R1.scM1_0 (Memref.isWhole_whole _) (fun h => h0 ((R1.hcond1_0 t).mp h)) ((R1.hcond1_1 t).mpr h3) (R1.iblk1 V c 0 t) (R1.iblk1 V c 1 t) (R1.iblk1 V c 2 t) (R1.iblk1 V c 3 t) (R1.iblk1 V c 4 t) (R1.outsAt1 V c (t.val - 1) (Nat.lt_of_le_of_lt (Nat.sub_le _ _) t.isLt)).2] at hacc
  refine (congrFun (R1.outC_eq c (grid1.coords t) (R1.ms1_0 t) (R1.hs1_0 t) (R1.ms1_1 t) (R1.hs1_1 t) (R1.ms1_2 t) (R1.hs1_2 t) (R1.ms1_3 t) (R1.hs1_3 t) (R1.ms1_4 t) (R1.hs1_4 t) (R1.ms1_5 t) (R1.hs1_5 t) R1.scM1_0 (Memref.isWhole_whole _) (fun h => h0 ((R1.hcond1_0 t).mp h)) ((R1.hcond1_1 t).mpr h3) (R1.iblk1 V c 0 t) (R1.iblk1 V c 1 t) (R1.iblk1 V c 2 t) (R1.iblk1 V c 3 t) (R1.iblk1 V c 4 t) (R1.outsAt1 V c (t.val - 1) (Nat.lt_of_le_of_lt (Nat.sub_le _ _) t.isLt)).2) y).trans ?_
  refine (congrArg _ (eq_ix2 y)).trans ?_
  refine (pay3_apply (k1_pay2 (F := Ideal) (R1.iblk1 V c 0 t) (R1.iblk1 V c 1 t) (R1.outsAt1 V c (t.val - 1) (Nat.lt_of_le_of_lt (Nat.sub_le _ _) t.isLt)).2) (R1.iblk1 V c 2 t) (R1.iblk1 V c 3 t) (R1.iblk1 V c 4 t) (y 0) (y 1)).trans ?_
  rw [hacc, iblk2_apply V c t (y 0) (y 1) i hi, iblk3_apply V c t (y 0) 0 i hi, iblk4_apply V c t 0 (y 1)]
  try rfl

/-- What a point of the last column block writes back is its block of `outFn`. -/
theorem flushed_eq (c : Dev nD) (t : Fin cfg1.N) (hf : (cfg1.win 5).flush t = true) :
    (R1.dat1 V c).flushed 5 t = ((cfg1.win 5).blk t).view.read (Elt Ideal) (outFn V c) := by
  have h3 : t.val % 4 = 3 := (flush1_5 t).mp hf
  obtain ⟨-, -, -, -, -, -, -, -, -, -, e0, e1⟩ := idx_facts t
  show (cfg1.win 5).cut (grid1.coords t) ((R1.dat1 V c).after 5 t) = _
  rw [R1.after1_5]
  funext y
  show ((R1.outsAt1 V c t.val t.isLt).1 : S1024x512.Idx → EReal) y = outFn V c (((cfg1.win 5).blk t).view.emb y)
  unfold outFn
  refine out_apply V c t h3 y _ _ ?_ ?_
  · show win1_5.index t (0 : Fin 2) * 1024 + 1 * (y 0).val = 1024 * (t.val / 4) + (y 0).val
    rw [e0]; omega
  · show win1_5.index t (1 : Fin 2) * 512 + 1 * (y 1).val = (y 1).val
    rw [e1]; omega

/-- Every row of the result is in the block some last-column point writes back: row `r` in point `4 (r / 1024) + 3`'s. -/
theorem cover (i : S8192x512.Idx) : ∃ t : Fin cfg1.N, (cfg1.win 5).flush t = true ∧ i ∈ ((cfg1.win 5).blk t).view.set := by
  have hN : cfg1.N = 32 := N_1
  have hi0 : (i 0).val < 8192 := (i 0).isLt
  have hi1 : (i 1).val < 512 := (i 1).isLt
  obtain ⟨t, ht⟩ : ∃ t : Fin cfg1.N, t.val = 4 * ((i 0).val / 1024) + 3 := ⟨⟨4 * ((i 0).val / 1024) + 3, by rw [hN]; omega⟩, rfl⟩
  obtain ⟨-, -, -, -, -, -, -, -, -, -, e0, e1⟩ := idx_facts t
  refine ⟨t, (flush1_5 t).mpr (by rw [ht]; omega), ?_⟩
  show i ∈ ((View.whole main_v14).slice (win1_5.rect t)).set
  rw [View.set_slice_whole, Rect.mem_set_unit]
  intro a
  match a with
  | ⟨0, _⟩ =>
    show win1_5.index t (0 : Fin 2) * 1024 ≤ (i 0).val ∧ (i 0).val < win1_5.index t (0 : Fin 2) * 1024 + 1024
    rw [e0, ht]; omega
  | ⟨1, _⟩ =>
    show win1_5.index t (1 : Fin 2) * 512 ≤ (i 1).val ∧ (i 1).val < win1_5.index t (1 : Fin 2) * 512 + 512
    rw [e1]; omega

/-- The result array after the thirty-two points. -/
theorem final (c : Dev nD) : (R1.dat1 V c).arrAt 5 cfg1.N = outFn V c :=
  (R1.dat1 V c).arrAt_eq_of_cover 5 (outFn V c) (flushed_eq V c) (cover)

end Cert.KernelIdeal.R1V

namespace Cert.KernelIdeal.R1V

open Cert.KernelIdeal Cert.KernelIdeal.Gen
open Idealize.ShloMosaic Idealize.ShloMosaic.TcCoe Idealize.SL.Sem
open Idealize.ShloMosaic.ValueIdx

/-- The region's result at `(i, cc)` from the four arrays it reads: the leaky rectifier of the row's inverse square-root
    degree times (the neighbours' scaled features summed block by block, plus the node's own) plus the bias. -/
def outVal (adj : S8192x8192.Idx → EReal) (hs : S8192x512.Idx → EReal) (d : S8192x1.Idx → EReal) (b : S1x512.Idx → EReal)
    (i : Fin 8192) (cc : Fin 512) : EReal :=
  Cert.GcnSpec.leaky (d (ix2 i (0 : Fin 1))
    * ((∑ kb : Fin 4, ∑ j : Fin 2048, adj (ix2 i (Cert.GcnSpec.col kb j)) * hs (ix2 (Cert.GcnSpec.col kb j) cc)) + hs (ix2 i cc))
    + b (ix2 (0 : Fin 1) cc))

/-- Entry `(i, cc)` of the result array after the region. -/
theorem out_eq (V : (c : Dev nD) → (b : Ref sig .tc) → Buf (Elt Ideal) ((c : Thread nD τ).loc b)) (c : Dev nD) (i : Fin 8192) (cc : Fin 512) :
    (R1.dat1 V c).arrAt 5 cfg1.N (ix2 i cc) = outVal (V c main_arg1) (V c main_v12) (V c main_v5) (V c main_v13) i cc :=
  congrFun (final V c) (ix2 i cc)

end Cert.KernelIdeal.R1V

end
-- ==== Proof.HostValue.lean ====
/-
  The host operations between the two pallas_calls, read at an index over the extended reals.

  From the column of row sums the first call left, the host takes `1 / √(sum + 1)` row by row (the inverse square
  root of the degree, the self loop counted as `+ 1`); it multiplies the first 4096 rows of the features by one weight
  matrix and the other 4096 by a second one, stacks the two products, and scales row `j` of the stack by row `j`'s
  inverse square-root degree; and it lays the bias out as one row.  Each of the three results is read here at an index
  as the shared specification's `dK`, `hsK` of `proj`, and the bias.
-/
import proofs.«169937_j55585466744854_1_alg».proof.Proof.Gen.KernelIdeal.Launch
import proofs.«169937_j55585466744854_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.HostV

open Cert.KernelIdeal Cert.KernelIdeal.Gen
open Idealize.ShloMosaic Idealize.ShloMosaic.TcCoe Idealize.SL.Sem
open Idealize.ShloMosaic.ValueIdx

/-! ## Columns and vectors -/

/-- A vector of `a` entries laid out as a column `[a, 1]` reads, at `(r, 0)`, the vector at `r`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` laid out as a vector of `a` entries reads, at `r`, the column at `(r, 0)`. -/
theorem shapeCast_a1_a_apply {α : Type} {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-! ## The inverse square root of the degree -/

/-- The host's chain from the column of row sums to the column of inverse square-root degrees: the column as a vector,
    plus the vector of ones, the reciprocal square root entry by entry, the vector as a column again. -/
def dinvOf (d : FVec Ideal S8192x1 .f32) : FVec Ideal S8192x1 .f32 :=
  shapeCast S8192x1
    (Host.rsqrt (addf (shapeCast S8192 d shapeCasts_S8192x1_S8192)
      (broadcastInDim S8192 ![] bcast_S_S8192 (constant (F := Ideal) S_ .f32 0x3F800000#32))))
    shapeCasts_S8192_S8192x1

/-- Row `i` of that column: the reciprocal square root of row `i`'s sum plus one. -/
theorem dinvOf_apply (d : FVec Ideal S8192x1 .f32) (i : Fin 8192) (u : Fin 1) :
    dinvOf d (ix2 i u) = Ideal.rsqrt (d (ix2 i (0 : Fin 1)) + 1) := by
  unfold dinvOf
  refine (shapeCast_a_a1_apply _ _ i u).trans ?_
  show Ideal.rsqrt (shapeCast S8192 d shapeCasts_S8192x1_S8192 (ix1 i)
    + broadcastInDim S8192 ![] bcast_S_S8192 (constant (F := Ideal) S_ .f32 0x3F800000#32) (ix1 i)) = _
  have e1 : shapeCast S8192 d shapeCasts_S8192x1_S8192 (ix1 i) = d (ix2 i (0 : Fin 1)) := shapeCast_a1_a_apply d _ i
  have e2 : broadcastInDim S8192 ![] bcast_S_S8192 (constant (F := Ideal) S_ .f32 0x3F800000#32) (ix1 i) = (1 : EReal) :=
    (broadcastInDim_scalar_apply _ _ _).trans ((constant_apply _ _).trans Ideal.ofBits_one_f32)
  rw [e1, e2]

/-! ## The projected features -/

/-- The product of a 4096 by 512 block of features with a 512 by 512 weight matrix, at an entry: the sum over the
    contracted coordinate of the products of the entries. -/
theorem dot_apply (A : FVec Ideal S4096x512 .f32) (B : FVec Ideal S512x512 .f32) (a : Fin 4096) (b : Fin 512) :
    Host.dotGeneral dot_S4096x512_S512x512_S4096x512_1_0_0_1_n_n none A B (ix2 a b) = ∑ k : Fin 512, A (ix2 a k) * B (ix2 k b) := by
  show FloatOps.dotGeneral _ none _ A B (ix2 a b) = _
  rw [Ideal.dotGeneral_apply, ← Equiv.sum_comp (contrEquiv1 dot_S4096x512_S512x512_S4096x512_1_0_0_1_n_n 512 rfl rfl).symm]
  refine Finset.sum_congr rfl fun c _ => ?_
  have c2 := contrEquiv1_symm_val dot_S4096x512_S512x512_S4096x512_1_0_0_1_n_n 512 rfl rfl c
  have l2 : dot_S4096x512_S512x512_S4096x512_1_0_0_1_n_n.lhsIdx (ix2 a b) ((contrEquiv1 _ 512 rfl rfl).symm c) = ix2 a c := by
    funext ax; apply Fin.ext
    match ax with
    | ⟨0, _⟩ => simp [DotDims.lhsIdx, dot_S4096x512_S512x512_S4096x512_1_0_0_1_n_n]; rfl
    | ⟨1, _⟩ => simp [DotDims.lhsIdx, dot_S4096x512_S512x512_S4096x512_1_0_0_1_n_n]; exact c2
  have r2 : dot_S4096x512_S512x512_S4096x512_1_0_0_1_n_n.rhsIdx (ix2 a b) ((contrEquiv1 _ 512 rfl rfl).symm c) = ix2 c b := by
    funext ax; apply Fin.ext
    match ax with
    | ⟨0, _⟩ => simp [DotDims.rhsIdx, dot_S4096x512_S512x512_S4096x512_1_0_0_1_n_n]; exact c2
    | ⟨1, _⟩ => simp [DotDims.rhsIdx, dot_S4096x512_S512x512_S4096x512_1_0_0_1_n_n]; rfl
  rw [l2, r2]

/-- The host's chain from the features and the two weight matrices to the projected features: the first 4096 rows
    times one matrix stacked on the other 4096 rows times the second. -/
def projOf (x : FVec Ideal S8192x512 .f32) (wr wd : FVec Ideal S512x512 .f32) : FVec Ideal S8192x512 .f32 :=
  concatenate S8192x512 0
    [⟨S4096x512, Host.dotGeneral dot_S4096x512_S512x512_S4096x512_1_0_0_1_n_n none
        (extractStridedSlice S4096x512 ![0, 0] x slices_S8192x512_S4096x512_0_0) wr⟩,
     ⟨S4096x512, Host.dotGeneral dot_S4096x512_S512x512_S4096x512_1_0_0_1_n_n none
        (extractStridedSlice S4096x512 ![4096, 0] x slices_S8192x512_S4096x512_4096_0) wd⟩]
    concatenates_S4096x512_S4096x512_S8192x512_d0

/-- It is the specification's projection, entry by entry. -/
theorem projOf_apply (x : FVec Ideal S8192x512 .f32) (wr wd : FVec Ideal S512x512 .f32) (i : Fin 8192) (c : Fin 512) :
    projOf x wr wd (ix2 i c) = Cert.GcnSpec.proj x wr wd i c := by
  unfold projOf Cert.GcnSpec.proj
  by_cases h : i.val < 4096
  · rw [if_pos h]
    refine (concatenate_pair_apply_left (t := S8192x512) (s₁ := S4096x512) (s₂ := S4096x512) (0 : Fin 2) _ _ concatenates_S4096x512_S4096x512_S8192x512_d0 (ix2 i c) rfl
      (ix2 (⟨i.val, h⟩ : Fin 4096) c) (fun b => by
        match b with
        | ⟨0, _⟩ => rfl
        | ⟨1, _⟩ => rfl)).trans ?_
    refine (dot_apply _ wr ⟨i.val, h⟩ c).trans ?_
    refine Finset.sum_congr rfl fun k _ => ?_
    congr 1
    exact extractStridedSlice_apply _ x slices_S8192x512_S4096x512_0_0 (ix2 (⟨i.val, h⟩ : Fin 4096) k) (ix2 i k) (fun a => by
      match a with
      | ⟨0, _⟩ => show i.val = 0 + i.val; omega
      | ⟨1, _⟩ => show k.val = 0 + k.val; omega)
  · rw [if_neg h]
    have hi : i.val < 8192 := i.isLt
    refine (concatenate_pair_apply_right (t := S8192x512) (s₁ := S4096x512) (s₂ := S4096x512) (0 : Fin 2) _ _ concatenates_S4096x512_S4096x512_S8192x512_d0 (ix2 i c) rfl rfl
      (ix2 (⟨i.val - 4096, by omega⟩ : Fin 4096) c) (fun b hb => by
        match b with
        | ⟨0, _⟩ => exact absurd rfl hb
        | ⟨1, _⟩ => rfl) (by show i.val - 4096 + 4096 = i.val; omega)).trans ?_
    refine (dot_apply _ wd ⟨i.val - 4096, by omega⟩ c).trans ?_
    refine Finset.sum_congr rfl fun k _ => ?_
    congr 1
    exact extractStridedSlice_apply _ x slices_S8192x512_S4096x512_4096_0 (ix2 (⟨i.val - 4096, by omega⟩ : Fin 4096) k) (ix2 i k) (fun a => by
      match a with
      | ⟨0, _⟩ => show i.val = 4096 + (i.val - 4096); omega
      | ⟨1, _⟩ => show k.val = 0 + k.val; omega)

/-! ## The scaled features -/

/-- A column copied along the rows of an 8192 by 512 array reads, at `(j, c)`, the column at `(j, 0)`. -/
theorem bcast_col_apply {α : Type} (x : S8192x1.Idx → α) (j : Fin 8192) (c : Fin 512) :
    broadcastInDim S8192x512 ![0, 1] bcast_S8192x1_S8192x512_0_1 x (ix2 j c) = x (ix2 j (0 : Fin 1)) :=
  broadcastInDim_apply ![0, 1] bcast_S8192x1_S8192x512_0_1 x (ix2 j c) (ix2 j (0 : Fin 1)) (fun a => by
    match a with
    | ⟨0, _⟩ => rfl
    | ⟨1, _⟩ => rfl)

/-- The host's product of the projected features with the column of inverse square-root degrees copied along the rows. -/
def hsOf (x : FVec Ideal S8192x512 .f32) (wr wd : FVec Ideal S512x512 .f32) (d : FVec Ideal S8192x1 .f32) : FVec Ideal S8192x512 .f32 :=
  mulf (projOf x wr wd) (broadcastInDim S8192x512 ![0, 1] bcast_S8192x1_S8192x512_0_1 (dinvOf d))

/-- Entry `(j, c)`: the projected feature times row `j`'s inverse square-root degree. -/
theorem hsOf_apply (x : FVec Ideal S8192x512 .f32) (wr wd : FVec Ideal S512x512 .f32) (d : FVec Ideal S8192x1 .f32) (j : Fin 8192) (c : Fin 512) :
    hsOf x wr wd d (ix2 j c) = Cert.GcnSpec.proj x wr wd j c * Ideal.rsqrt (d (ix2 j (0 : Fin 1)) + 1) := by
  unfold hsOf
  refine (mulf_apply _ _ _).trans ?_
  refine congrArg₂ (· * ·) (projOf_apply x wr wd j c) ?_
  refine (bcast_col_apply (dinvOf d) j c).trans ?_
  exact dinvOf_apply d j 0

/-! ## The bias as a row -/

/-- A vector of `a` entries laid out as a row `[1, a]` reads, at `(0, r)`, the vector at `r`. -/
theorem shapeCast_a_1a_apply {α : Type} {a : ℕ} (x : (⟨1, ![a]⟩ : Shape).Idx → α) (h : (⟨1, ![a]⟩ : Shape).ShapeCasts ⟨2, ![1, a]⟩)
    (u : Fin 1) (r : Fin a) : shapeCast ⟨2, ![1, a]⟩ x h (ix2 u r) = x (ix1 r) :=
  shapeCast_apply x h _ _ (by
    have hu : u.val = 0 := by omega
    rw [Shape.rowMajor_val_two, Shape.rowMajor_val_one]
    show r.val = u.val * a + r.val
    rw [hu, Nat.zero_mul, Nat.zero_add])

/-! ## The three buffers after the host operations -/

section Val

variable (W : Valuation τ sig (Elt Ideal))

/-- The column of inverse square-root degrees the host leaves is its chain applied to the column of row sums it found. -/
theorem v5_eq : (StableHlo.after (hostOps1 (F := Ideal)) W (Proc.devRef .tc main_v5) : S8192x1.Idx → EReal)
    = dinvOf (W (Proc.devRef .tc main_v0)) := by
  dsimp only [hostOps1]
  after_results
  rfl

/-- The scaled features the host leaves are its chain applied to the features, the two weight matrices and the column of
    row sums it found. -/
theorem v12_eq : (StableHlo.after (hostOps1 (F := Ideal)) W (Proc.devRef .tc main_v12) : S8192x512.Idx → EReal)
    = hsOf (W (Proc.devRef .tc main_arg0)) (W (Proc.devRef .tc main_arg2)) (W (Proc.devRef .tc main_arg3)) (W (Proc.devRef .tc main_v0)) := by
  dsimp only [hostOps1]
  after_results
  rfl

/-- The bias row the host leaves is the bias vector laid out as one row. -/
theorem v13_eq : (StableHlo.after (hostOps1 (F := Ideal)) W (Proc.devRef .tc main_v13) : S1x512.Idx → EReal)
    = shapeCast S1x512 (W (Proc.devRef .tc main_arg4)) shapeCasts_S512_S1x512 := by
  dsimp only [hostOps1]
  after_results
  rfl

variable (hd : ∀ i : Fin 8192, (W (Proc.devRef .tc main_v0) : S8192x1.Idx → EReal) (ix2 i (0 : Fin 1))
    = (∑ j : Fin 8192, (W (Proc.devRef .tc main_arg1) : S8192x8192.Idx → EReal) (ix2 i j) : EReal))

include hd in
/-- Row `i` of the column the host leaves is the specification's inverse square-root degree of node `i`. -/
theorem dinv_eq (i : Fin 8192) :
    (StableHlo.after (hostOps1 (F := Ideal)) W (Proc.devRef .tc main_v5) : S8192x1.Idx → EReal) (ix2 i (0 : Fin 1))
      = Cert.GcnSpec.dK (W (Proc.devRef .tc main_arg1) : S8192x8192.Idx → EReal) i := by
  rw [v5_eq W, dinvOf_apply, hd i]
  rfl

include hd in
/-- Entry `(j, c)` of the scaled features the host leaves is the specification's scaled projected feature. -/
theorem hs_eq (j : Fin 8192) (c : Fin 512) :
    (StableHlo.after (hostOps1 (F := Ideal)) W (Proc.devRef .tc main_v12) : S8192x512.Idx → EReal) (ix2 j c)
      = Cert.GcnSpec.hsK (W (Proc.devRef .tc main_arg1) : S8192x8192.Idx → EReal)
          (Cert.GcnSpec.proj (W (Proc.devRef .tc main_arg0) : S8192x512.Idx → EReal) (W (Proc.devRef .tc main_arg2) : S512x512.Idx → EReal)
            (W (Proc.devRef .tc main_arg3) : S512x512.Idx → EReal)) j c := by
  rw [v12_eq W, hsOf_apply, hd j]
  rfl

/-- Entry `(0, c)` of the bias row the host leaves is entry `c` of the bias. -/
theorem bias_eq (c : Fin 512) :
    (StableHlo.after (hostOps1 (F := Ideal)) W (Proc.devRef .tc main_v13) : S1x512.Idx → EReal) (ix2 (0 : Fin 1) c)
      = (W (Proc.devRef .tc main_arg4) : S512.Idx → EReal) (ix1 c) := by
  rw [v13_eq W]
  exact shapeCast_a_1a_apply _ _ 0 c

end Val

end Cert.KernelIdeal.HostV

end
-- ==== Proof.SpecArr.lean ====
/-
  The two arrangements of Proof/Spec.lean as whole result arrays: entry `(i, c)` of the result is the layer's output
  for node `i` and feature `c`, computed from the projected node features.
-/
import proofs.«169937_j55585466744854_1_alg».proof.Proof.Spec

noncomputable section

namespace Cert.GcnSpec

open Idealize.ShloMosaic Idealize.ShloMosaic.ValueIdx

/-- The result array in the arrangement that scales the features first and sums the neighbours block by block. -/
def arrK (x : SX.Idx → EReal) (adj : SA.Idx → EReal) (wr wd : SW.Idx → EReal) (b : SB.Idx → EReal) : SX.Idx → EReal :=
  fun idx => outK adj (proj x wr wd) b (idx 0) (idx 1)

/-- The result array in the arrangement that normalises the matrix first. -/
def arrR (x : SX.Idx → EReal) (adj : SA.Idx → EReal) (wr wd : SW.Idx → EReal) (b : SB.Idx → EReal) : SX.Idx → EReal :=
  fun idx => outR adj (proj x wr wd) b (idx 0) (idx 1)

end Cert.GcnSpec

end
-- ==== Proof.KValue.lean ====
/-
  The kernel program's result at the exact instance: after the run the result array holds, at node `i` and feature
  `c`, the leaky rectifier of the inverse square-root degree of `i` times (the neighbours' scaled features summed over
  the four column blocks plus the node's own scaled features) plus the bias — the arrangement `arrK` of the
  specification, read off the last valuation through the second region's block sums, the host stretch's scalings
  and the first region's row sums.
-/
import proofs.«169937_j55585466744854_1_alg».proof.Proof.KFrame
import proofs.«169937_j55585466744854_1_alg».proof.Proof.Region0Value
import proofs.«169937_j55585466744854_1_alg».proof.Proof.R1Value
import proofs.«169937_j55585466744854_1_alg».proof.Proof.HostValue
import proofs.«169937_j55585466744854_1_alg».proof.Proof.SpecArr

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The buffers the host stretch starts from hold the arguments as launched, -/
theorem W2_arg0 (c : Dev nD) : W2 m c (Proc.devRef .tc main_arg0) = m ((c : Thread nD τ).loc main_arg0) := W2_of_ne m c main_arg0 (by decide)
theorem W2_arg1 (c : Dev nD) : W2 m c (Proc.devRef .tc main_arg1) = m ((c : Thread nD τ).loc main_arg1) :=
  (W2_arr m c 0).trans (((R0.dat0 (V1 m) c).arrAt_in 0 rfl _).trans (R0.A_eq0 (V1 m) c 0))
theorem W2_arg2 (c : Dev nD) : W2 m c (Proc.devRef .tc main_arg2) = m ((c : Thread nD τ).loc main_arg2) := W2_of_ne m c main_arg2 (by decide)
theorem W2_arg3 (c : Dev nD) : W2 m c (Proc.devRef .tc main_arg3) = m ((c : Thread nD τ).loc main_arg3) := W2_of_ne m c main_arg3 (by decide)
theorem W2_arg4 (c : Dev nD) : W2 m c (Proc.devRef .tc main_arg4) = m ((c : Thread nD τ).loc main_arg4) := W2_of_ne m c main_arg4 (by decide)

/-- and the first region's row sums of the adjacency matrix. -/
theorem W2_deg (c : Dev nD) (i : Fin 8192) :
    (W2 m c (Proc.devRef .tc main_v0) : S8192x1.Idx → EReal) (ix2 i (0 : Fin 1))
      = (∑ j : Fin 8192, (W2 m c (Proc.devRef .tc main_arg1) : S8192x8192.Idx → EReal) (ix2 i j) : EReal) := by
  rw [W2_arg1 m c]
  exact (congrFun (W2_arr m c 1) (ix2 i (0 : Fin 1))).trans (R0V.degsum (V1 m) c i)

/-- The host stretch does not write the adjacency matrix. -/
theorem W3_arg1 (c : Dev nD) : W3 m c (Proc.devRef .tc main_arg1) = m ((c : Thread nD τ).loc main_arg1) :=
  (StableHlo.after_of_writes_sub hostOps1 _ hostOps1_writes (by decide)).trans (W2_arg1 m c)

/-- THE RESULT: the last valuation's result array is the specification's `arrK` of the argument arrays. -/
theorem W4_result (c : Dev nD) :
    (W4 m c (Proc.devRef .tc main_v14) : S8192x512.Idx → EReal)
      = Cert.GcnSpec.arrK (m ((c : Thread nD τ).loc main_arg0)) (m ((c : Thread nD τ).loc main_arg1)) (m ((c : Thread nD τ).loc main_arg2))
          (m ((c : Thread nD τ).loc main_arg3)) (m ((c : Thread nD τ).loc main_arg4)) := by
  funext idx
  obtain ⟨i, cc, rfl⟩ : ∃ (i : Fin 8192) (cc : Fin 512), idx = ix2 i cc := ⟨idx 0, idx 1, eq_ix2 idx⟩
  rw [W4_out m c]
  refine (R1V.out_eq (V3 m) c i cc).trans ?_
  have e5 : (V3 m c main_v5 : S8192x1.Idx → EReal) (ix2 i (0 : Fin 1)) = Cert.GcnSpec.dK (m ((c : Thread nD τ).loc main_arg1)) i :=
    (HostV.dinv_eq (W2 m c) (W2_deg m c) i).trans (by rw [W2_arg1 m c])
  have e12 : ∀ j : Fin 8192, (V3 m c main_v12 : S8192x512.Idx → EReal) (ix2 j cc)
      = Cert.GcnSpec.hsK (m ((c : Thread nD τ).loc main_arg1)) (Cert.GcnSpec.proj (m ((c : Thread nD τ).loc main_arg0)) (m ((c : Thread nD τ).loc main_arg2)) (m ((c : Thread nD τ).loc main_arg3))) j cc :=
    fun j => (HostV.hs_eq (W2 m c) (W2_deg m c) j cc).trans (by rw [W2_arg0 m c, W2_arg1 m c, W2_arg2 m c, W2_arg3 m c])
  have e13 : (V3 m c main_v13 : S1x512.Idx → EReal) (ix2 (0 : Fin 1) cc) = (m ((c : Thread nD τ).loc main_arg4) : S512.Idx → EReal) (ix1 cc) :=
    (HostV.bias_eq (W2 m c) cc).trans (by rw [W2_arg4 m c])
  have e1 : (V3 m c main_arg1 : S8192x8192.Idx → EReal) = m ((c : Thread nD τ).loc main_arg1) := W3_arg1 m c
  unfold R1V.outVal Cert.GcnSpec.arrK Cert.GcnSpec.outK Cert.GcnSpec.accK
  rw [e5, e13, e1]
  simp only [e12]

/-- THE VALUE RUN: every weakly fair execution terminates with the result array at `arrK` of the arguments and the
    arguments unchanged. -/
theorem run : θ_run (defs (F := Ideal)) (onTc (τ := τ) (main (F := Ideal))) ⟨m, fun _ => 0, ρ⟩ (fun r => ∀ c : Dev nD,
      r.2.mem ((c.tc : Thread nD τ).loc main_v14) = Cert.GcnSpec.arrK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v14 (by decide))).trans (W4_result m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_W4 m ρ)

end Cert.KernelIdeal.KV

end
-- ==== Proof.RefRun.lean ====
/-
  The run of the reference program, read back as a function of its argument arrays.

  The reference's @main is a straight line of host operations once its two outlined functions (the guarded
  inverse square root's `where`, and the leaky rectifier with the `where` nested in it) are unfolded at their call
  sites: forty-one operations, listed below in order.  Every weakly fair execution of that line terminates with
  the result buffer at the operations' composed pure term `refTerm` of the five argument arrays, the arguments
  unchanged.  `refTerm` is built in named stages that follow the mathematics: the identity matrix, the adjacency
  matrix with self loops, the degrees, the guarded inverse square roots, the normalised matrix, the projected
  features, the product plus bias, and the leaky rectifier.
-/
import proofs.«169937_j55585466744854_1_alg».proof.ReferenceIdeal
import proofs.«169937_j55585466744854_1_alg».proof.Proof.Gen.ReferenceIdeal
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo

variable [Facts]
open Facts₀ Facts

section Line

variable {F : FTy → Type} [FloatOps F]

/-- @main's forty-one operations in order, the two calls unfolded: the guarded inverse square root's `where` is
    three (its scalar zero converted to its own type, broadcast, the select), the leaky rectifier seven (the zero
    and its broadcast, the comparison, the slope converted to its own type and broadcast, the product, and the
    nested `where`'s select). -/
abbrev ops : List (HloOp τ sig (Elt F)) :=
  [
    nullary main_v0 (iotaInDim S8192x8192 32 0),
    nullary main_v1 (iotaInDim S8192x8192 32 1),
    nullary main_c (constantI S_ 32 0#32),
    unary main_c main_v2 (broadcastInDim S8192x8192 ![] bcast_S_S8192x8192 : (⟨S_, .i32⟩ : BufTy).Contents (Elt F) → (⟨S8192x8192, .i32⟩ : BufTy).Contents (Elt F)),
    binary main_v0 main_v2 main_v3 (addi : (⟨S8192x8192, .i32⟩ : BufTy).Contents (Elt F) → (⟨S8192x8192, .i32⟩ : BufTy).Contents (Elt F) → (⟨S8192x8192, .i32⟩ : BufTy).Contents (Elt F)),
    binary main_v3 main_v1 main_v4 (cmpi .eq : (⟨S8192x8192, .i32⟩ : BufTy).Contents (Elt F) → (⟨S8192x8192, .i32⟩ : BufTy).Contents (Elt F) → (⟨S8192x8192, .i1⟩ : BufTy).Contents (Elt F)),
    unary main_v4 main_v5 (uitofp .f32 : (⟨S8192x8192, .i1⟩ : BufTy).Contents (Elt F) → (⟨S8192x8192, .f32⟩ : BufTy).Contents (Elt F)),
    binary main_arg1 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    binary main_v6 main_cst main_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_0 (constant S_ .f32 0x00000000#32),
    unary main_cst_0 main_v8 (broadcastInDim S8192 ![] bcast_S_S8192 : (⟨S_, .f32⟩ : BufTy).Contents (Elt F) → (⟨S8192, .f32⟩ : BufTy).Contents (Elt F)),
    binary main_v7 main_v8 main_v9 (cmpf .ogt : (⟨S8192, .f32⟩ : BufTy).Contents (Elt F) → (⟨S8192, .f32⟩ : BufTy).Contents (Elt F) → (⟨S8192, .i1⟩ : BufTy).Contents (Elt F)),
    unary main_v7 main_v10 (Host.rsqrt : (⟨S8192, .f32⟩ : BufTy).Contents (Elt F) → (⟨S8192, .f32⟩ : BufTy).Contents (Elt F)),
    nullary main_cst_1 (constant S_ .f32 0x00000000#32),
    TRef.unary (.of main_cst_1 : TRef sig ⟨S_, .f32⟩) main_call0.v0 id,
    TRef.unary main_call0.v0 main_call0.v1 (broadcastInDim S8192 ![] bcast_S_S8192),
    TRef.ternary (.of main_v9 : TRef sig ⟨S8192, .i1⟩) (.of main_v10 : TRef sig ⟨S8192, .f32⟩) main_call0.v1 main_call0.v2 select,
    unary main_v11 main_v12 (broadcastInDim S8192x1 ![0] bcast_S8192_S8192x1_0 : (⟨S8192, .f32⟩ : BufTy).Contents (Elt F) → (⟨S8192x1, .f32⟩ : BufTy).Contents (Elt F)),
    unary main_v12 main_v13 (broadcastInDim S8192x8192 ![0, 1] bcast_S8192x1_S8192x8192_0_1 : (⟨S8192x1, .f32⟩ : BufTy).Contents (Elt F) → (⟨S8192x8192, .f32⟩ : BufTy).Contents (Elt F)),
    binary main_v6 main_v13 main_v14 (mulf : (⟨S8192x8192, .f32⟩ : BufTy).Contents (Elt F) → (⟨S8192x8192, .f32⟩ : BufTy).Contents (Elt F) → (⟨S8192x8192, .f32⟩ : BufTy).Contents (Elt F)),
    unary main_v11 main_v15 (broadcastInDim S1x8192 ![1] bcast_S8192_S1x8192_1 : (⟨S8192, .f32⟩ : BufTy).Contents (Elt F) → (⟨S1x8192, .f32⟩ : BufTy).Contents (Elt F)),
    unary main_v15 main_v16 (broadcastInDim S8192x8192 ![0, 1] bcast_S1x8192_S8192x8192_0_1 : (⟨S1x8192, .f32⟩ : BufTy).Contents (Elt F) → (⟨S8192x8192, .f32⟩ : BufTy).Contents (Elt F)),
    binary main_v14 main_v16 main_v17 (mulf : (⟨S8192x8192, .f32⟩ : BufTy).Contents (Elt F) → (⟨S8192x8192, .f32⟩ : BufTy).Contents (Elt F) → (⟨S8192x8192, .f32⟩ : BufTy).Contents (Elt F)),
    unary main_arg0 main_v18 ((extractStridedSlice S4096x512 ![0, 0] · slices_S8192x512_S4096x512_0_0) : (⟨S8192x512, .f32⟩ : BufTy).Contents (Elt F) → (⟨S4096x512, .f32⟩ : BufTy).Contents (Elt F)),
    binary main_v18 main_arg2 main_v19 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg0 main_v20 ((extractStridedSlice S4096x512 ![4096, 0] · slices_S8192x512_S4096x512_4096_0) : (⟨S8192x512, .f32⟩ : BufTy).Contents (Elt F) → (⟨S4096x512, .f32⟩ : BufTy).Contents (Elt F)),
    binary main_v20 main_arg3 main_v21 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_v19 main_v21 main_v22 ((fun a b => concatenate S8192x512 0 [⟨S4096x512, a⟩, ⟨S4096x512, b⟩] concatenates_S4096x512_S4096x512_S8192x512_d0) : (⟨S4096x512, .f32⟩ : BufTy).Contents (Elt F) → (⟨S4096x512, .f32⟩ : BufTy).Contents (Elt F) → (⟨S8192x512, .f32⟩ : BufTy).Contents (Elt F)),
    binary main_v17 main_v22 main_v23 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    unary main_arg4 main_v24 (broadcastInDim S1x512 ![1] bcast_S512_S1x512_1 : (⟨S512, .f32⟩ : BufTy).Contents (Elt F) → (⟨S1x512, .f32⟩ : BufTy).Contents (Elt F)),
    unary main_v24 main_v25 (broadcastInDim S8192x512 ![0, 1] bcast_S1x512_S8192x512_0_1 : (⟨S1x512, .f32⟩ : BufTy).Contents (Elt F) → (⟨S8192x512, .f32⟩ : BufTy).Contents (Elt F)),
    binary main_v23 main_v25 main_v26 (addf : (⟨S8192x512, .f32⟩ : BufTy).Contents (Elt F) → (⟨S8192x512, .f32⟩ : BufTy).Contents (Elt F) → (⟨S8192x512, .f32⟩ : BufTy).Contents (Elt F)),
    nullary main_cst_2 (constant S_ .f32 0x3C23D70A#32),
    TRef.nullary main_call1.cst (constant S_ .f32 0x00000000#32),
    TRef.unary main_call1.cst main_call1.v0 (broadcastInDim S8192x512 ![] bcast_S_S8192x512),
    TRef.binary (.of main_v26 : TRef sig ⟨S8192x512, .f32⟩) main_call1.v0 main_call1.v1 (cmpf .oge),
    TRef.unary (.of main_cst_2 : TRef sig ⟨S_, .f32⟩) main_call1.v2 id,
    TRef.unary main_call1.v2 main_call1.v3 (broadcastInDim S8192x512 ![] bcast_S_S8192x512),
    TRef.binary main_call1.v3 (.of main_v26 : TRef sig ⟨S8192x512, .f32⟩) main_call1.v4 mulf,
    TRef.ternary main_call1.v1 (.of main_v26 : TRef sig ⟨S8192x512, .f32⟩) main_call1.v4 main_call1.call0.v0 select ]

-- the program is a chain of forty-one sequenced steps, re-associated one statement at a time
set_option maxRecDepth 2048 in
/-- @main is that straight line: the functions' definitions unfolded at their calls, both sides are one chain of
    steps once sequencing is reassociated. -/
theorem main_eq (c : Dev nD) : main (F := F) c = seq ops := by
  simp only [main, fn_where.body, fn_leaky_relu.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., nullary_bufs_sub .., unary_bufs_sub .., binary_bufs_sub .., binary_bufs_sub ..,
    unary_bufs_sub .., binary_bufs_sub .., nullary_bufs_sub .., binary_bufs_sub .., nullary_bufs_sub .., unary_bufs_sub ..,
    binary_bufs_sub .., unary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    unary_bufs_sub .., binary_bufs_sub .., unary_bufs_sub .., binary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub ..⟩

end Line

/-! ## The composed term, stage by stage (at the ideal values) -/

/-- The identity matrix as the program builds it: row number equal to column number, as a float. -/
def eyeT : FVec Ideal S8192x8192 .f32 :=
  uitofp .f32 (cmpi .eq (addi (iotaInDim S8192x8192 32 0) (broadcastInDim S8192x8192 ![] bcast_S_S8192x8192 (constantI S_ 32 0#32)))
    (iotaInDim S8192x8192 32 1))

/-- The adjacency matrix with a self loop per node. -/
def loopT (adj : FVec Ideal S8192x8192 .f32) : FVec Ideal S8192x8192 .f32 := addf adj eyeT

/-- The degrees: the row sums of the matrix with self loops. -/
def degT (adj : FVec Ideal S8192x8192 .f32) : FVec Ideal S8192 .f32 :=
  Host.reduceAdd (loopT adj) (constant (F := Ideal) S_ .f32 0x00000000#32) reducesTo_S8192x8192_S8192_d1 h_S_

/-- The inverse square roots of the degrees, zero where the degree is not positive. -/
def dinvT (adj : FVec Ideal S8192x8192 .f32) : FVec Ideal S8192 .f32 :=
  select (cmpf .ogt (degT adj) (broadcastInDim S8192 ![] bcast_S_S8192 (constant (F := Ideal) S_ .f32 0x00000000#32)))
    (Host.rsqrt (degT adj))
    (broadcastInDim S8192 ![] bcast_S_S8192 (constant (F := Ideal) S_ .f32 0x00000000#32))

/-- The normalised matrix: each entry scaled by its row's and its column's inverse square-root degree. -/
def normT (adj : FVec Ideal S8192x8192 .f32) : FVec Ideal S8192x8192 .f32 :=
  mulf (mulf (loopT adj)
      (broadcastInDim S8192x8192 ![0, 1] bcast_S8192x1_S8192x8192_0_1 (broadcastInDim S8192x1 ![0] bcast_S8192_S8192x1_0 (dinvT adj))))
    (broadcastInDim S8192x8192 ![0, 1] bcast_S1x8192_S8192x8192_0_1 (broadcastInDim S1x8192 ![1] bcast_S8192_S1x8192_1 (dinvT adj)))

/-- The projected features: the first 4096 rows times one weight matrix, the others times the second, stacked. -/
def projT (x : FVec Ideal S8192x512 .f32) (wr wd : FVec Ideal S512x512 .f32) : FVec Ideal S8192x512 .f32 :=
  concatenate S8192x512 0
    [⟨S4096x512, Host.dotGeneral dot_S4096x512_S512x512_S4096x512_1_0_0_1_n_n none
        (extractStridedSlice S4096x512 ![0, 0] x slices_S8192x512_S4096x512_0_0) wr⟩,
     ⟨S4096x512, Host.dotGeneral dot_S4096x512_S512x512_S4096x512_1_0_0_1_n_n none
        (extractStridedSlice S4096x512 ![4096, 0] x slices_S8192x512_S4096x512_4096_0) wd⟩]
    concatenates_S4096x512_S4096x512_S8192x512_d0

/-- The normalised matrix times the projected features, plus the bias along every row. -/
def preT (x : FVec Ideal S8192x512 .f32) (adj : FVec Ideal S8192x8192 .f32) (wr wd : FVec Ideal S512x512 .f32)
    (b : FVec Ideal S512 .f32) : FVec Ideal S8192x512 .f32 :=
  addf (Host.dotGeneral dot_S8192x8192_S8192x512_S8192x512_1_0_0_1_n_n none (normT adj) (projT x wr wd))
    (broadcastInDim S8192x512 ![0, 1] bcast_S1x512_S8192x512_0_1 (broadcastInDim S1x512 ![1] bcast_S512_S1x512_1 b))

/-- The program's result as a function of its five argument arrays: the leaky rectifier of `preT`. -/
def refTerm (x : FVec Ideal S8192x512 .f32) (adj : FVec Ideal S8192x8192 .f32) (wr wd : FVec Ideal S512x512 .f32)
    (b : FVec Ideal S512 .f32) : FVec Ideal S8192x512 .f32 :=
  select (cmpf .oge (preT x adj wr wd b) (broadcastInDim S8192x512 ![] bcast_S_S8192x512 (constant (F := Ideal) S_ .f32 0x00000000#32)))
    (preT x adj wr wd b)
    (mulf (broadcastInDim S8192x512 ![] bcast_S_S8192x512 (constant (F := Ideal) S_ .f32 0x3C23D70A#32)) (preT x adj wr wd b))

/-! ## What the line leaves in the result buffer and in the arguments -/

set_option maxRecDepth 4096 in
/-- The fold of the forty-one operations at the result buffer is `refTerm` of the arguments' contents. -/
theorem out_eq (V : Valuation τ sig (Elt Ideal)) :
    after (ops (F := Ideal)) V (main_v27 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  simp only [TRef.ofBuf, TRef.toBuf, cast_eq, id_eq]
  unfold refTerm preT normT projT dinvT degT loopT eyeT
  rfl

set_option maxRecDepth 4096 in
theorem arg0_eq (V : Valuation τ sig (Elt Ideal)) :
    after (ops (F := Ideal)) V (main_arg0 : DevRef τ sig) = V (main_arg0 : DevRef τ sig) := by after_results_simp
set_option maxRecDepth 4096 in
theorem arg1_eq (V : Valuation τ sig (Elt Ideal)) :
    after (ops (F := Ideal)) V (main_arg1 : DevRef τ sig) = V (main_arg1 : DevRef τ sig) := by after_results_simp
set_option maxRecDepth 4096 in
theorem arg2_eq (V : Valuation τ sig (Elt Ideal)) :
    after (ops (F := Ideal)) V (main_arg2 : DevRef τ sig) = V (main_arg2 : DevRef τ sig) := by after_results_simp
set_option maxRecDepth 4096 in
theorem arg3_eq (V : Valuation τ sig (Elt Ideal)) :
    after (ops (F := Ideal)) V (main_arg3 : DevRef τ sig) = V (main_arg3 : DevRef τ sig) := by after_results_simp
set_option maxRecDepth 4096 in
theorem arg4_eq (V : Valuation τ sig (Elt Ideal)) :
    after (ops (F := Ideal)) V (main_arg4 : DevRef τ sig) = V (main_arg4 : DevRef τ sig) := by after_results_simp

/-- On every device, from any memory with zero counters: every weakly fair execution of @main terminates with the
    result buffer at `refTerm` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v27).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefValue.lean ====
/-
  The reference program's composed term, read entry by entry, is the specification's array `arrR`.

  Each stage of the term is read at explicit coordinates: the identity matrix (row number equal to column number,
  compared as 32-bit words, converted to a float) is `eye`; the row sum of the matrix with self loops, from a zero
  initial value, is `degR`; the comparison with zero and the select on it give the guarded inverse square root
  `dR`; the two broadcasts spread it along rows and along columns, so an entry of the normalised matrix is
  `(adj + eye) · dR i · dR j`; the two sliced products stacked along the rows are `proj`; the large product is the
  sum over the 8192 nodes; and the comparison with zero, the product with the slope and the select are `leaky`.
-/
import proofs.«169937_j55585466744854_1_alg».proof.Proof.RefRun
import proofs.«169937_j55585466744854_1_alg».proof.Proof.SpecArr
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.RefRun Idealize.ShloMosaic Idealize.ShloMosaic.ValueIdx
open scoped BigOperators

variable [Facts]
open Facts₀ Facts

/-! ## The identity matrix -/

/-- Two node numbers, as 32-bit words, are equal exactly when the nodes are: both are below 2^32. -/
theorem ofNat_eq_iff (i j : Fin 8192) : BitVec.ofNat 32 i.val = BitVec.ofNat 32 j.val ↔ i = j := by
  constructor
  · intro h
    have h2 := congrArg BitVec.toNat h
    simp only [BitVec.toNat_ofNat, Nat.reducePow] at h2
    have hi := i.isLt; have hj := j.isLt
    exact Fin.ext (by omega)
  · rintro rfl; rfl

/-- The identity matrix as the program builds it, read at row `i` and column `j`. -/
theorem eyeT_apply (i j : Fin 8192) : eyeT (ix2 i j) = Cert.GcnSpec.eye i j := by
  show (((IntOp.cmpi .eq (IntOp.addi (BitVec.ofNat 32 i.val) 0#32) (BitVec.ofNat 32 j.val)).toNat : ℝ) : EReal) = _
  have hz : IntOp.addi (BitVec.ofNat 32 i.val) 0#32 = BitVec.ofNat 32 i.val := by
    unfold IntOp.addi; exact BitVec.add_zero _
  rw [hz]
  unfold Cert.GcnSpec.eye IntOp.cmpi
  by_cases h : i = j
  · subst h; rw [if_pos rfl]; simp
  · rw [if_neg h]
    have hne : (BitVec.ofNat 32 i.val == BitVec.ofNat 32 j.val) = false := by
      rw [beq_eq_false_iff_ne]; exact fun e => h ((ofNat_eq_iff i j).mp e)
    simp [hne]

/-- The matrix with self loops, read at an entry. -/
theorem loopT_apply (adj : FVec Ideal S8192x8192 .f32) (i j : Fin 8192) :
    loopT adj (ix2 i j) = adj (ix2 i j) + Cert.GcnSpec.eye i j := by
  unfold loopT; rw [addf_apply, eyeT_apply]

/-! ## The degrees -/

/-- The row index with the column put back. -/
theorem lift_row (h : S8192x8192.Reduces [1] S8192) (i : Fin 8192) (k : Fin 8192) :
    h.lift (ix1 i) k = ix2 i k := by
  funext a
  match a with
  | ⟨0, _⟩ => rfl
  | ⟨1, _⟩ => rfl

theorem degT_apply (adj : FVec Ideal S8192x8192 .f32) (i : Fin 8192) :
    degT adj (ix1 i) = Cert.GcnSpec.degR adj i := by
  have hR : S8192x8192.Reduces [1] S8192 := by decide
  unfold degT Cert.GcnSpec.degR
  rw [hostReduceAdd_apply, Ideal.hostReduceAdd_single reducesTo_S8192x8192_S8192_d1 hR, constant_apply,
    Ideal.ofBits_zero_f32, zero_add]
  show ∑ k : Fin 8192, loopT adj (hR.lift (ix1 i) k) = ∑ j : Fin 8192, (adj (ix2 i j) + Cert.GcnSpec.eye i j)
  exact Finset.sum_congr rfl fun k _ => by rw [lift_row, loopT_apply]

/-! ## The guarded inverse square roots -/

theorem dinvT_apply (adj : FVec Ideal S8192x8192 .f32) (i : Fin 8192) :
    dinvT adj (ix1 i) = Cert.GcnSpec.dR adj i := by
  unfold dinvT Cert.GcnSpec.dR
  rw [select_apply, cmpf_apply, Ideal.cmpf_def, broadcastInDim_scalar_apply, constant_apply, Ideal.ofBits_zero_f32]
  show Scalar.select (Ideal.cmp .ogt (degT adj (ix1 i)) 0) (Ideal.rsqrt (degT adj (ix1 i))) 0 = _
  rw [degT_apply]
  unfold Ideal.cmp
  by_cases h : 0 < Cert.GcnSpec.degR adj i
  · rw [if_pos h]; simp only [h, decide_true, BitVec.ofBool_true]; exact select_one _ _
  · rw [if_neg h]; simp only [h, decide_false, BitVec.ofBool_false]; exact select_zero _ _

/-! ## Broadcasts of a vector along the rows and along the columns -/

/-- A vector of one entry per row, spread along every row: entry `(i, j)` reads the vector at `i`. -/
theorem bcast_rows (v : FVec Ideal S8192 .f32) (i j : Fin 8192) :
    broadcastInDim S8192x8192 ![0, 1] bcast_S8192x1_S8192x8192_0_1 (broadcastInDim S8192x1 ![0] bcast_S8192_S8192x1_0 v) (ix2 i j)
      = v (ix1 i) := by
  rw [broadcastInDim_apply _ _ _ (ix2 i j) (ix2 i (0 : Fin 1)) (fun a => by
        match a with
        | ⟨0, _⟩ => split
                    · next h => exact absurd h (show ¬ ((8192 : ℕ) = 1) by decide)
                    · rfl
        | ⟨1, _⟩ => split
                    · rfl
                    · next h => exact absurd (show (1 : ℕ) = 1 from rfl) h),
    broadcastInDim_apply _ _ _ (ix2 i (0 : Fin 1)) (ix1 i) (fun a => by
        match a with
        | ⟨0, _⟩ => split
                    · next h => exact absurd h (show ¬ ((8192 : ℕ) = 1) by decide)
                    · rfl)]

/-- A vector of one entry per column, spread down every column: entry `(i, j)` reads the vector at `j`. -/
theorem bcast_cols (v : FVec Ideal S8192 .f32) (i j : Fin 8192) :
    broadcastInDim S8192x8192 ![0, 1] bcast_S1x8192_S8192x8192_0_1 (broadcastInDim S1x8192 ![1] bcast_S8192_S1x8192_1 v) (ix2 i j)
      = v (ix1 j) := by
  rw [broadcastInDim_apply _ _ _ (ix2 i j) (ix2 (0 : Fin 1) j) (fun a => by
        match a with
        | ⟨0, _⟩ => split
                    · rfl
                    · next h => exact absurd (show (1 : ℕ) = 1 from rfl) h
        | ⟨1, _⟩ => split
                    · next h => exact absurd h (show ¬ ((8192 : ℕ) = 1) by decide)
                    · rfl),
    broadcastInDim_apply _ _ _ (ix2 (0 : Fin 1) j) (ix1 j) (fun a => by
        match a with
        | ⟨0, _⟩ => split
                    · next h => exact absurd h (show ¬ ((8192 : ℕ) = 1) by decide)
                    · rfl)]

/-- The bias, one entry per feature, spread down every column of the result. -/
theorem bcast_bias (b : FVec Ideal S512 .f32) (i : Fin 8192) (c : Fin 512) :
    broadcastInDim S8192x512 ![0, 1] bcast_S1x512_S8192x512_0_1 (broadcastInDim S1x512 ![1] bcast_S512_S1x512_1 b) (ix2 i c)
      = b (ix1 c) := by
  rw [broadcastInDim_apply _ _ _ (ix2 i c) (ix2 (0 : Fin 1) c) (fun a => by
        match a with
        | ⟨0, _⟩ => split
                    · rfl
                    · next h => exact absurd (show (1 : ℕ) = 1 from rfl) h
        | ⟨1, _⟩ => split
                    · next h => exact absurd h (show ¬ ((512 : ℕ) = 1) by decide)
                    · rfl),
    broadcastInDim_apply _ _ _ (ix2 (0 : Fin 1) c) (ix1 c) (fun a => by
        match a with
        | ⟨0, _⟩ => split
                    · next h => exact absurd h (show ¬ ((512 : ℕ) = 1) by decide)
                    · rfl)]

/-! ## The normalised matrix -/

theorem normT_apply (adj : FVec Ideal S8192x8192 .f32) (i j : Fin 8192) :
    normT adj (ix2 i j) = (adj (ix2 i j) + Cert.GcnSpec.eye i j) * Cert.GcnSpec.dR adj i * Cert.GcnSpec.dR adj j := by
  unfold normT
  rw [mulf_apply, mulf_apply, loopT_apply, bcast_rows, bcast_cols, dinvT_apply, dinvT_apply]

/-! ## The two matrix products -/

/-- A row block of the features times a weight matrix, read at an entry: the sum over the 512 input features. -/
theorem dot_small_apply (L : FVec Ideal S4096x512 .f32) (R : FVec Ideal S512x512 .f32) (r : Fin 4096) (c : Fin 512) :
    Host.dotGeneral dot_S4096x512_S512x512_S4096x512_1_0_0_1_n_n none L R (ix2 r c)
      = ∑ k : Fin 512, L (ix2 r k) * R (ix2 k c) := by
  show FloatOps.dotGeneral dot_S4096x512_S512x512_S4096x512_1_0_0_1_n_n none .single L R (ix2 r c) = _
  rw [Ideal.dotGeneral_apply,
    ← Equiv.sum_comp (contrEquiv1 dot_S4096x512_S512x512_S4096x512_1_0_0_1_n_n 512 rfl rfl).symm]
  refine Finset.sum_congr rfl fun k _ => ?_
  have hl : dot_S4096x512_S512x512_S4096x512_1_0_0_1_n_n.lhsIdx (ix2 r c)
      ((contrEquiv1 dot_S4096x512_S512x512_S4096x512_1_0_0_1_n_n 512 rfl rfl).symm k) = ix2 r k := by
    funext a
    match a with
    | ⟨0, _⟩ => exact Fin.ext rfl
    | ⟨1, _⟩ => exact Fin.ext rfl
  have hr : dot_S4096x512_S512x512_S4096x512_1_0_0_1_n_n.rhsIdx (ix2 r c)
      ((contrEquiv1 dot_S4096x512_S512x512_S4096x512_1_0_0_1_n_n 512 rfl rfl).symm k) = ix2 k c := by
    funext a
    match a with
    | ⟨0, _⟩ => exact Fin.ext rfl
    | ⟨1, _⟩ => exact Fin.ext rfl
  rw [hl, hr]

/-- The normalised matrix times the projected features, read at an entry: the sum over the 8192 nodes. -/
theorem dot_big_apply (A : FVec Ideal S8192x8192 .f32) (H : FVec Ideal S8192x512 .f32) (i : Fin 8192) (c : Fin 512) :
    Host.dotGeneral dot_S8192x8192_S8192x512_S8192x512_1_0_0_1_n_n none A H (ix2 i c)
      = ∑ j : Fin 8192, A (ix2 i j) * H (ix2 j c) := by
  show FloatOps.dotGeneral dot_S8192x8192_S8192x512_S8192x512_1_0_0_1_n_n none .single A H (ix2 i c) = _
  rw [Ideal.dotGeneral_apply,
    ← Equiv.sum_comp (contrEquiv1 dot_S8192x8192_S8192x512_S8192x512_1_0_0_1_n_n 8192 rfl rfl).symm]
  refine Finset.sum_congr rfl fun k _ => ?_
  have hl : dot_S8192x8192_S8192x512_S8192x512_1_0_0_1_n_n.lhsIdx (ix2 i c)
      ((contrEquiv1 dot_S8192x8192_S8192x512_S8192x512_1_0_0_1_n_n 8192 rfl rfl).symm k) = ix2 i k := by
    funext a
    match a with
    | ⟨0, _⟩ => exact Fin.ext rfl
    | ⟨1, _⟩ => exact Fin.ext rfl
  have hr : dot_S8192x8192_S8192x512_S8192x512_1_0_0_1_n_n.rhsIdx (ix2 i c)
      ((contrEquiv1 dot_S8192x8192_S8192x512_S8192x512_1_0_0_1_n_n 8192 rfl rfl).symm k) = ix2 k c := by
    funext a
    match a with
    | ⟨0, _⟩ => exact Fin.ext rfl
    | ⟨1, _⟩ => exact Fin.ext rfl
  rw [hl, hr]

/-! ## The projected features -/

theorem projT_apply (x : FVec Ideal S8192x512 .f32) (wr wd : FVec Ideal S512x512 .f32) (i : Fin 8192) (c : Fin 512) :
    projT x wr wd (ix2 i c) = Cert.GcnSpec.proj x wr wd i c := by
  unfold projT Cert.GcnSpec.proj
  by_cases h : i.val < 4096
  · rw [if_pos h,
      concatenate_pair_apply_left (s₁ := S4096x512) (s₂ := S4096x512) (0 : Fin S8192x512.rank) _ _ _ (ix2 i c) rfl (ix2 (⟨i.val, h⟩ : Fin 4096) c) (fun b => by
        match b with
        | ⟨0, _⟩ => rfl
        | ⟨1, _⟩ => rfl),
      dot_small_apply]
    refine Finset.sum_congr rfl fun k _ => ?_
    rw [slice2_axis0_apply 0 x _ (⟨i.val, h⟩ : Fin 4096) k i (Nat.zero_add _).symm]
  · have hi := i.isLt
    rw [if_neg h,
      concatenate_pair_apply_right (s₁ := S4096x512) (s₂ := S4096x512) (0 : Fin S8192x512.rank) _ _ _ (ix2 i c) rfl rfl (ix2 (⟨i.val - 4096, by omega⟩ : Fin 4096) c)
        (fun b hb => by
          match b with
          | ⟨0, _⟩ => exact absurd rfl hb
          | ⟨1, _⟩ => rfl)
        (by show i.val - 4096 + 4096 = i.val; omega),
      dot_small_apply]
    refine Finset.sum_congr rfl fun k _ => ?_
    rw [slice2_axis0_apply 4096 x _ (⟨i.val - 4096, by omega⟩ : Fin 4096) k i (by show i.val = 4096 + (i.val - 4096); omega)]

/-! ## The product plus bias, and the leaky rectifier -/

theorem preT_apply (x : FVec Ideal S8192x512 .f32) (adj : FVec Ideal S8192x8192 .f32) (wr wd : FVec Ideal S512x512 .f32)
    (b : FVec Ideal S512 .f32) (i : Fin 8192) (c : Fin 512) :
    preT x adj wr wd b (ix2 i c)
      = (∑ j : Fin 8192, (adj (ix2 i j) + Cert.GcnSpec.eye i j) * Cert.GcnSpec.dR adj i * Cert.GcnSpec.dR adj j
            * Cert.GcnSpec.proj x wr wd j c) + b (ix1 c) := by
  unfold preT
  rw [addf_apply, dot_big_apply, bcast_bias]
  congr 1
  exact Finset.sum_congr rfl fun j _ => by rw [normT_apply, projT_apply]

/-- The reference program's result is the specification's array: entry by entry, the leaky rectifier of the
    normalised matrix's row times the projected features' column, plus the bias. -/
theorem refTerm_eq (x : FVec Ideal S8192x512 .f32) (adj : FVec Ideal S8192x8192 .f32) (wr wd : FVec Ideal S512x512 .f32)
    (b : FVec Ideal S512 .f32) :
    Cert.ReferenceIdeal.RefRun.refTerm x adj wr wd b = Cert.GcnSpec.arrR x adj wr wd b := by
  funext idx
  obtain ⟨i, c, rfl⟩ : ∃ (i : Fin 8192) (c : Fin 512), idx = ix2 i c := ⟨idx 0, idx 1, eq_ix2 idx⟩
  unfold refTerm
  rw [select_apply, cmpf_apply, Ideal.cmpf_def, mulf_apply, broadcastInDim_scalar_apply, broadcastInDim_scalar_apply,
    constant_apply, constant_apply, Ideal.ofBits_zero_f32, preT_apply]
  show Scalar.select (Ideal.cmp .oge _ 0) _ _ = Cert.GcnSpec.leaky _
  unfold Ideal.cmp Cert.GcnSpec.leaky Cert.GcnSpec.slope
  generalize (∑ j : Fin 8192, (adj (ix2 i j) + Cert.GcnSpec.eye i j) * Cert.GcnSpec.dR adj i * Cert.GcnSpec.dR adj j
            * Cert.GcnSpec.proj x wr wd j c) + b (ix1 c) = P
  by_cases h : (0 : EReal) ≤ P
  · rw [if_pos h]; simp only [h, decide_true, BitVec.ofBool_true]; exact select_one _ _
  · rw [if_neg h]; simp only [h, decide_false, BitVec.ofBool_false]; exact (select_zero _ _).trans (mul_comm _ _)

/-! ## The run, stated at the specification's array -/

open Idealize.ShloMosaic.TcCoe Idealize.SL.Sem in
/-- On every device, from any memory with zero counters: every weakly fair execution of the reference's @main
    terminates with the result buffer at the specification's array `arrR` of the arguments' launch contents and
    the arguments unchanged. -/
theorem run_arrR (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27) = Cert.GcnSpec.arrR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (refTerm_eq _ _ _ _ _), (h c).2⟩) (Cert.ReferenceIdeal.RefRun.run m ρ)

end Cert.ReferenceIdeal.RefValue

end
-- ==== Proof.Bridge.lean ====
/-
  The two arrangements of the graph-convolution layer agree on a 0/1 adjacency matrix and real features.

  With every adjacency entry 0 or 1 a row sum is a nonnegative real, so the degree (row sum plus the self loop) is a
  real that is at least 1 in both arrangements: the guard on a positive degree holds and both inverse square roots
  are the same positive real.  After that every quantity is a real number and the claim is an identity of finite
  real sums: the four blocks of 2048 columns enumerate the 8192 columns once each, and
  d_i (sum_j a_ij (h_jc d_j) + h_ic d_i) = sum_j (a_ij + delta_ij) d_i d_j h_jc.
-/
import proofs.«169937_j55585466744854_1_alg».proof.Proof.Spec
import Idealize.ShloMosaic.PureOps.Ideal
import Idealize.ShloMosaic.Lib.ValueIdx

noncomputable section

open scoped BigOperators

namespace Cert.GcnSpec

open Idealize.ShloMosaic Idealize.ShloMosaic.ValueIdx

/-! ## Coercion of finite real sums -/

/-- The coercion of the reals into the extended reals commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals that are all coercions of reals is the coercion of the real sum. -/
theorem sum_coe_eq {ι : Type*} (s : Finset ι) (F : ι → EReal) (f : ι → ℝ) (hF : ∀ i, F i = (f i : EReal)) :
    ∑ i ∈ s, F i = ((∑ i ∈ s, f i : ℝ) : EReal) := by
  rw [coe_finsum]
  exact Finset.sum_congr rfl fun i _ => hF i

/-! ## The projected features are real -/

theorem proj_real (x : SX.Idx → EReal) (wr wd : SW.Idx → EReal)
    (hx : ∀ idx, ∃ r : ℝ, x idx = (r : EReal)) (hwr : ∀ idx, ∃ r : ℝ, wr idx = (r : EReal)) (hwd : ∀ idx, ∃ r : ℝ, wd idx = (r : EReal))
    (i : Fin 8192) (c : Fin 512) : ∃ r : ℝ, proj x wr wd i c = (r : EReal) := by
  choose fx hfx using hx
  choose fr hfr using hwr
  choose fd hfd using hwd
  unfold proj
  split_ifs
  · refine ⟨∑ k : Fin 512, fx (ix2 i k) * fr (ix2 k c), ?_⟩
    refine sum_coe_eq _ _ _ fun k => ?_
    rw [hfx, hfr, EReal.coe_mul]
  · refine ⟨∑ k : Fin 512, fx (ix2 i k) * fd (ix2 k c), ?_⟩
    refine sum_coe_eq _ _ _ fun k => ?_
    rw [hfx, hfd, EReal.coe_mul]

/-! ## The four column blocks enumerate the columns -/

/-- A pair (block, column inside the block) is the same thing as a column. -/
def colEquiv : Fin 4 × Fin 2048 ≃ Fin 8192 where
  toFun p := col p.1 p.2
  invFun j := (⟨j.val / 2048, by omega⟩, ⟨j.val % 2048, by omega⟩)
  left_inv p := by
    rcases p with ⟨⟨kb, hkb⟩, ⟨j, hj⟩⟩
    simp only [col, Prod.mk.injEq, Fin.mk.injEq]
    constructor <;> omega
  right_inv j := by
    rcases j with ⟨j, hj⟩
    simp only [col, Fin.mk.injEq]
    omega

/-- Summing block by block is summing over all columns. -/
theorem sum_blocks {M : Type*} [AddCommMonoid M] (f : Fin 8192 → M) :
    ∑ kb : Fin 4, ∑ j : Fin 2048, f (col kb j) = ∑ j : Fin 8192, f j := by
  rw [← Fintype.sum_prod_type']
  exact Fintype.sum_equiv colEquiv _ _ fun _ => rfl

/-! ## Degrees and their inverse square roots -/

section Real

variable (a : Fin 8192 → Fin 8192 → ℝ) (hr : Fin 8192 → Fin 512 → ℝ)

/-- The real row sum of the adjacency matrix. -/
def rowR (i : Fin 8192) : ℝ := ∑ j : Fin 8192, a i j

/-- The real inverse square root of the degree (row sum plus the self loop). -/
def dinvR (i : Fin 8192) : ℝ := (Real.sqrt (rowR a i + 1))⁻¹

theorem rowR_nonneg (ha : ∀ i j, a i j = 0 ∨ a i j = 1) (i : Fin 8192) : 0 ≤ rowR a i := by
  unfold rowR
  refine Finset.sum_nonneg fun j _ => ?_
  rcases ha i j with h | h <;> rw [h]
  exact zero_le_one

/-- The real identity behind the two arrangements. -/
theorem real_identity (d : Fin 8192 → ℝ) (i : Fin 8192) (c : Fin 512) :
    d i * ((∑ j : Fin 8192, a i j * (hr j c * d j)) + hr i c * d i)
      = ∑ j : Fin 8192, (a i j + (if i = j then (1 : ℝ) else 0)) * d i * d j * hr j c := by
  have h1 : ∀ j : Fin 8192, (a i j + (if i = j then (1 : ℝ) else 0)) * d i * d j * hr j c
      = d i * (a i j * (hr j c * d j)) + (if i = j then d i * (hr j c * d j) else 0) := by
    intro j
    split_ifs <;> ring
  rw [Finset.sum_congr rfl fun j _ => h1 j, Finset.sum_add_distrib, Finset.sum_ite_eq, if_pos (Finset.mem_univ i),
    ← Finset.mul_sum, mul_add]

end Real

section Bridge

variable (adj : SA.Idx → EReal) (h : Fin 8192 → Fin 512 → EReal)
variable (a : Fin 8192 → Fin 8192 → ℝ) (hr : Fin 8192 → Fin 512 → ℝ)

theorem rowsum_eq (haa : ∀ i j, adj (ix2 i j) = (a i j : EReal)) (i : Fin 8192) :
    ∑ j : Fin 8192, adj (ix2 i j) = (rowR a i : EReal) :=
  sum_coe_eq _ _ _ fun j => haa i j

theorem eye_eq (i j : Fin 8192) : eye i j = ((if i = j then (1 : ℝ) else 0 : ℝ) : EReal) := by
  unfold eye
  split_ifs
  · exact EReal.coe_one.symm
  · exact EReal.coe_zero.symm

theorem degR_eq (haa : ∀ i j, adj (ix2 i j) = (a i j : EReal)) (i : Fin 8192) :
    degR adj i = ((rowR a i + 1 : ℝ) : EReal) := by
  unfold degR
  rw [sum_coe_eq _ _ (fun j => a i j + (if i = j then (1 : ℝ) else 0)) fun j => by
    rw [haa, eye_eq, EReal.coe_add]]
  rw [Finset.sum_add_distrib, Finset.sum_ite_eq, if_pos (Finset.mem_univ i)]
  rfl

theorem rsqrt_pos_coe (r : ℝ) (hpos : 0 < r) : Ideal.rsqrt (r : EReal) = (((Real.sqrt r)⁻¹ : ℝ) : EReal) := by
  rw [Ideal.rsqrt_coe, if_neg (not_lt.mpr hpos.le), if_neg hpos.ne']

theorem dK_eq (haa : ∀ i j, adj (ix2 i j) = (a i j : EReal)) (ha : ∀ i j, a i j = 0 ∨ a i j = 1) (i : Fin 8192) :
    dK adj i = (dinvR a i : EReal) := by
  unfold dK dinvR
  rw [rowsum_eq adj a haa, ← EReal.coe_one, ← EReal.coe_add]
  exact rsqrt_pos_coe _ (by have := rowR_nonneg a ha i; linarith)

theorem dR_eq (haa : ∀ i j, adj (ix2 i j) = (a i j : EReal)) (ha : ∀ i j, a i j = 0 ∨ a i j = 1) (i : Fin 8192) :
    dR adj i = (dinvR a i : EReal) := by
  have hpos : 0 < rowR a i + 1 := by have := rowR_nonneg a ha i; linarith
  unfold dR dinvR
  rw [degR_eq adj a haa, if_pos (EReal.coe_pos.mpr hpos)]
  exact rsqrt_pos_coe _ hpos

theorem hsK_eq (haa : ∀ i j, adj (ix2 i j) = (a i j : EReal)) (ha : ∀ i j, a i j = 0 ∨ a i j = 1)
    (hhr : ∀ j c, h j c = (hr j c : EReal)) (j : Fin 8192) (c : Fin 512) :
    hsK adj h j c = ((hr j c * dinvR a j : ℝ) : EReal) := by
  unfold hsK
  rw [hhr, dK_eq adj a haa ha, EReal.coe_mul]

theorem accK_eq (haa : ∀ i j, adj (ix2 i j) = (a i j : EReal)) (ha : ∀ i j, a i j = 0 ∨ a i j = 1)
    (hhr : ∀ j c, h j c = (hr j c : EReal)) (i : Fin 8192) (c : Fin 512) :
    accK adj h i c = ((∑ j : Fin 8192, a i j * (hr j c * dinvR a j) : ℝ) : EReal) := by
  unfold accK
  rw [sum_blocks (fun j => adj (ix2 i j) * hsK adj h j c)]
  refine sum_coe_eq _ _ _ fun j => ?_
  rw [haa, hsK_eq adj h a hr haa ha hhr]
  simp only [EReal.coe_mul]

theorem outK_eq_outR_aux (bias : SB.Idx → EReal)
    (haa : ∀ i j, adj (ix2 i j) = (a i j : EReal)) (ha : ∀ i j, a i j = 0 ∨ a i j = 1)
    (hhr : ∀ j c, h j c = (hr j c : EReal)) (i : Fin 8192) (c : Fin 512) :
    outK adj h bias i c = outR adj h bias i c := by
  unfold outK outR
  have hK : dK adj i * (accK adj h i c + hsK adj h i c)
      = ((dinvR a i * ((∑ j : Fin 8192, a i j * (hr j c * dinvR a j)) + hr i c * dinvR a i) : ℝ) : EReal) := by
    rw [dK_eq adj a haa ha, accK_eq adj h a hr haa ha hhr, hsK_eq adj h a hr haa ha hhr]
    simp only [EReal.coe_mul, EReal.coe_add]
  have hR : (∑ j : Fin 8192, (adj (ix2 i j) + eye i j) * dR adj i * dR adj j * h j c)
      = ((∑ j : Fin 8192, (a i j + (if i = j then (1 : ℝ) else 0)) * dinvR a i * dinvR a j * hr j c : ℝ) : EReal) := by
    refine sum_coe_eq _ _ _ fun j => ?_
    rw [haa, eye_eq, dR_eq adj a haa ha, dR_eq adj a haa ha, hhr]
    simp only [EReal.coe_mul, EReal.coe_add]
  rw [hK, hR, real_identity a hr (dinvR a) i c]

end Bridge

/-! ## The two arrangements agree -/

theorem outK_eq_outR (adj : SA.Idx → EReal) (h : Fin 8192 → Fin 512 → EReal) (bias : SB.Idx → EReal)
    (hadj : ∀ i j : Fin 8192, adj (ix2 i j) = 0 ∨ adj (ix2 i j) = 1)
    (hh : ∀ j c, ∃ r : ℝ, h j c = (r : EReal)) (i : Fin 8192) (c : Fin 512) :
    outK adj h bias i c = outR adj h bias i c := by
  have hex : ∀ i j : Fin 8192, ∃ r : ℝ, adj (ix2 i j) = (r : EReal) ∧ (r = 0 ∨ r = 1) := by
    intro i j
    rcases hadj i j with h0 | h1
    · exact ⟨0, by rw [h0, EReal.coe_zero], Or.inl rfl⟩
    · exact ⟨1, by rw [h1, EReal.coe_one], Or.inr rfl⟩
  choose a haa ha using hex
  choose hr hhr using hh
  exact outK_eq_outR_aux adj h a hr bias haa ha hhr i c

end Cert.GcnSpec

end
-- ==== Proof.PreFacts.lean ====
/-
  What the precondition says of the argument arrays.

  The precondition is the conjunction of six tests, each an "all elements" reduction by "and" from the constant
  true: for each of the five arrays that the absolute value of every element is below plus infinity, and for the
  adjacency matrix that every element equals zero or equals one.  An "and" of one-bit words is 1 exactly when both
  are, and an all-reduction that is 1 saw a 1 at every index.  An extended real whose absolute value is below
  plus infinity is neither infinity, hence a real number; the ordered equality test is 1 exactly on equal values,
  and the two bit patterns compared against denote 0 and 1.
-/
import proofs.«169937_j55585466744854_1_alg».proof.Pre_finite_inputs
import proofs.«169937_j55585466744854_1_alg».proof.Proof.Gen.Pre_finite_inputs
import Idealize.ShloMosaic.Lib.ReduceAll
import Idealize.ShloMosaic.Lib.ValueIdx
import Idealize.ShloMosaic.Lib.IdealHost
import Idealize.ShloMosaic.PureOps.Ideal

noncomputable section

namespace Cert.Pre_finite_inputs.Decode

open Idealize.ShloMosaic Idealize.ShloMosaic.ValueIdx

variable [Cert.Pre_finite_inputs.Facts]

/-- The shape of a scalar has exactly one index. -/
instance : Subsingleton S_.Idx := ⟨fun _ _ => funext fun d => d.elim0⟩

/-! ## The two element tests -/

/-- An extended real whose absolute value is below plus infinity is a real number. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  induction v using EReal.rec with
  | bot => simp at h
  | coe r => exact ⟨r, rfl⟩
  | top => simp at h

/-- The ordered equality test is 1 only on equal values. -/
theorem eq_of_oeq (v w : EReal) (h : Ideal.cmp .oeq v w = 1#1) : v = w := by
  by_contra hne
  have h' : BitVec.ofBool (decide (v = w)) = 1#1 := h
  rw [decide_eq_false hne] at h'
  exact absurd h' (by decide)

/-- An elementwise "and" of one-bit arrays is 1 at an index only where both arrays are. -/
theorem andi_apply_eq_one {s : Shape} (X Y : IVec s 1) (i : s.Idx) (h : andi X Y i = 1#1) : X i = 1#1 ∧ Y i = 1#1 :=
  IntOp.andi_eq_one.1 h

/-! ## The two array tests -/

section Arrays

variable {S : Shape} {axes : List (Fin S.rank)}

/-- An array that passes "every absolute value is below plus infinity" has only real entries. -/
theorem real_of_all (hb : S_.BroadcastsInDim S ![]) (hr : S.ReducesTo axes S_) (hu : 0 < S_.numel) (a : FVec Ideal S .f32)
    (e : Host.reduce IntOp.andi
        (cmpf .olt (Host.absf a) (broadcastInDim S ![] hb (constant (F := Ideal) S_ .f32 0x7F800000#32)))
        (constantI S_ 1 1#1) hr hu ix0 = 1#1) (idx : S.Idx) : ∃ r : ℝ, a idx = (r : EReal) := by
  have h1 := Host.reduce_andi_all _ _ hr hu ix0 e idx
  rw [cmpf_apply, broadcastInDim_scalar_apply, constant_apply] at h1
  exact real_of_abs_lt_inf (a idx) h1

/-- An array that passes "every element equals zero or equals one" has only the entries 0 and 1. -/
theorem zero_or_one_of_all (hb : S_.BroadcastsInDim S ![]) (hr : S.ReducesTo axes S_) (hu : 0 < S_.numel) (a : FVec Ideal S .f32)
    (e : Host.reduce IntOp.andi
        (ori (cmpf .oeq a (broadcastInDim S ![] hb (constant (F := Ideal) S_ .f32 0x00000000#32)))
          (cmpf .oeq a (broadcastInDim S ![] hb (constant (F := Ideal) S_ .f32 0x3F800000#32))))
        (constantI S_ 1 1#1) hr hu ix0 = 1#1) (idx : S.Idx) : a idx = 0 ∨ a idx = 1 := by
  have h1 := Host.reduce_andi_all _ _ hr hu ix0 e idx
  rcases IntOp.ori_eq_one.1 h1 with h2 | h2
  · left
    rw [cmpf_apply, broadcastInDim_scalar_apply, constant_apply, Ideal.ofBits_zero_f32] at h2
    exact eq_of_oeq _ _ h2
  · right
    rw [cmpf_apply, broadcastInDim_scalar_apply, constant_apply, Ideal.ofBits_one_f32] at h2
    exact eq_of_oeq _ _ h2

end Arrays

/-! ## The precondition, decoded -/

theorem decode (x : FVec Ideal S8192x512 .f32) (adj : FVec Ideal S8192x8192 .f32) (wr wd : FVec Ideal S512x512 .f32) (b : FVec Ideal S512 .f32)
    (h : Cert.Pre_finite_inputs.fn (F := Ideal) x adj wr wd b = (fun _ => 1#1)) :
    (∀ idx, ∃ r : ℝ, x idx = (r : EReal)) ∧ (∀ idx, ∃ r : ℝ, wr idx = (r : EReal)) ∧ (∀ idx, ∃ r : ℝ, wd idx = (r : EReal))
      ∧ (∀ idx, adj idx = 0 ∨ adj idx = 1) := by
  have h0 := congrFun h ix0
  dsimp only [fn, fn_part1] at h0
  obtain ⟨h5, hA⟩ := andi_apply_eq_one _ _ _ h0
  obtain ⟨h4, _⟩ := andi_apply_eq_one _ _ _ h5
  obtain ⟨h3, hWd⟩ := andi_apply_eq_one _ _ _ h4
  obtain ⟨h2, hWr⟩ := andi_apply_eq_one _ _ _ h3
  obtain ⟨hX, _⟩ := andi_apply_eq_one _ _ _ h2
  exact ⟨real_of_all _ _ _ x hX, real_of_all _ _ _ wr hWr, real_of_all _ _ _ wd hWd, zero_or_one_of_all _ _ _ adj hA⟩

end Cert.Pre_finite_inputs.Decode

end
-- ==== Proof.lean ====
/-
  A graph-convolution layer on 8192 nodes: the kernel computes each node's degree (a row sum of the adjacency matrix
  plus one for the self loop) in a first kernel region, scales the projected node features by the inverse square roots
  of the degrees on the host, and in a second kernel region sums the neighbours' scaled features block by block,
  adds the node's own, scales the total, adds the bias and applies a leaky rectifier; the reference normalises the
  matrix with its self loops entry by entry (guarding nodes of non-positive degree) and multiplies it into the
  projected features.  On a 0/1 adjacency matrix every degree is at least one, both inverse square roots are the same
  positive real, every quantity is real, and the two arrangements agree by distributivity in the real numbers.
  The three programs' frames come from their runs; the idealization rewrote nothing.
-/
import proofs.«169937_j55585466744854_1_alg».proof.Defs
import proofs.«169937_j55585466744854_1_alg».proof.Proof.Gen.Kernel
import proofs.«169937_j55585466744854_1_alg».proof.Proof.Gen.KernelIdeal
import proofs.«169937_j55585466744854_1_alg».proof.Proof.Gen.ReferenceIdeal
import proofs.«169937_j55585466744854_1_alg».proof.Proof.Gen.Pre_finite_inputs
import proofs.«169937_j55585466744854_1_alg».proof.Proof.KFrameW
import proofs.«169937_j55585466744854_1_alg».proof.Proof.KValue
import proofs.«169937_j55585466744854_1_alg».proof.Proof.RefValue
import proofs.«169937_j55585466744854_1_alg».proof.Proof.Bridge
import proofs.«169937_j55585466744854_1_alg».proof.Proof.PreFacts
import proofs.«169937_j55585466744854_1_alg».proof.Proof.SpecArr

noncomputable section

namespace Cert.Proof

open Idealize.ShloMosaic Idealize.ShloMosaic.ValueIdx Idealize.SL.Sem

/-- On arguments satisfying the precondition (finite entries, a 0/1 adjacency matrix) the two arrangements of the
    layer are one array: the projected features are real, and the bridge of the specification applies entry by entry. -/
theorem arr_eq (x : FVec Ideal Cert.Pre_finite_inputs.S8192x512 .f32) (adj : FVec Ideal Cert.Pre_finite_inputs.S8192x8192 .f32)
    (wr wd : FVec Ideal Cert.Pre_finite_inputs.S512x512 .f32) (b : FVec Ideal Cert.Pre_finite_inputs.S512 .f32)
    (h : Cert.Pre_finite_inputs.fn (F := Ideal) x adj wr wd b = (fun _ => 1#1)) :
    Cert.GcnSpec.arrK x adj wr wd b = Cert.GcnSpec.arrR x adj wr wd b := by
  obtain ⟨hx, hwr, hwd, hadj⟩ := Cert.Pre_finite_inputs.Decode.decode x adj wr wd b h
  funext idx
  exact Cert.GcnSpec.outK_eq_outR adj _ b (fun i j => hadj (ix2 i j))
    (fun j c => Cert.GcnSpec.proj_real x wr wd hx hwr hwd j c) (idx 0) (idx 1)

theorem frame_k : Cert.frame_Kernel := fun m ρ _ => Cert.Kernel.KF.frame m ρ
theorem frame_ki : Cert.frame_KernelIdeal := fun m ρ _ => Cert.KernelIdeal.KF.frame m ρ
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Both idealized programs end with the layer's output: the kernel's result array is the block-summed arrangement of
    its arguments, the reference's the matrix-normalised one of arguments that agree, and under the precondition the
    two are equal. -/
theorem algebraic : Cert.algebraic_KernelIdeal_ReferenceIdeal := by
  intro m ρ m' ρ' hpre hagree
  refine ⟨_, Cert.KernelIdeal.KV.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2,
    Cert.ReferenceIdeal.RefValue.refTerm_eq]
  exact (arr_eq _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
